-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x80 : Shape := ⟨2, ![524288, 80]⟩
abbrev S_ : Shape := ⟨0, ![]⟩

class Facts : Prop where
  bcast_S_S524288x80 : S_.BroadcastsInDim S524288x80 (![] : Fin 0 → Fin S524288x80.rank)
  reducesTo_S524288x80_S_d0_1 : S524288x80.ReducesTo [0, 1] S_
  h_S_ : 0 < S_.numel

variable [Facts]

def fn {F : FTy → Type} [FloatOps F] (main_arg0 : FVec F S524288x80 .f32) (main_arg1 : FVec F S524288x80 .f32) (main_arg2 : FVec F S524288x80 .f32) : IVec S_ 1 :=
  let main_v0 : FVec F S524288x80 .f32 := Host.absf main_arg0
  let main_cst : FVec F S_ .f32 := constant S_ .f32 0x7F800000#32
  let main_v1 : FVec F S524288x80 .f32 := broadcastInDim S524288x80 ![] bcast_S_S524288x80 main_cst
  let main_v2 : IVec S524288x80 1 := cmpf .olt main_v0 main_v1
  let main_c : IVec S_ 1 := constantI S_ 1 1#1
  let main_v3 : IVec S_ 1 := (fun x v => Host.reduce IntOp.andi x v reducesTo_S524288x80_S_d0_1 h_S_) main_v2 main_c
  let main_v4 : FVec F S524288x80 .f32 := Host.absf main_arg1
  let main_cst_0 : FVec F S_ .f32 := constant S_ .f32 0x7F800000#32
  let main_v5 : FVec F S524288x80 .f32 := broadcastInDim S524288x80 ![] bcast_S_S524288x80 main_cst_0
  let main_v6 : IVec S524288x80 1 := cmpf .olt main_v4 main_v5
  let main_c_1 : IVec S_ 1 := constantI S_ 1 1#1
  let main_v7 : IVec S_ 1 := (fun x v => Host.reduce IntOp.andi x v reducesTo_S524288x80_S_d0_1 h_S_) main_v6 main_c_1
  let main_v8 : IVec S_ 1 := andi main_v3 main_v7
  let main_v9 : FVec F S524288x80 .f32 := Host.absf main_arg2
  let main_cst_2 : FVec F S_ .f32 := constant S_ .f32 0x7F800000#32
  let main_v10 : FVec F S524288x80 .f32 := broadcastInDim S524288x80 ![] bcast_S_S524288x80 main_cst_2
  let main_v11 : IVec S524288x80 1 := cmpf .olt main_v9 main_v10
  let main_c_3 : IVec S_ 1 := constantI S_ 1 1#1
  let main_v12 : IVec S_ 1 := (fun x v => Host.reduce IntOp.andi x v reducesTo_S524288x80_S_d0_1 h_S_) main_v11 main_c_3
  let main_v13 : IVec S_ 1 := andi main_v8 main_v12
  main_v13
-- ==== Kernel.lean ====
abbrev S524288x80 : Shape := ⟨2, ![524288, 80]⟩
abbrev S40960x1024 : Shape := ⟨2, ![40960, 1024]⟩
abbrev S16x128 : Shape := ⟨2, ![16, 128]⟩
abbrev S512x1024 : Shape := ⟨2, ![512, 1024]⟩
abbrev S8x128 : Shape := ⟨2, ![8, 128]⟩
abbrev S1x128 : Shape := ⟨2, ![1, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S128 : Shape := ⟨1, ![128]⟩
abbrev S_ : Shape := ⟨0, ![]⟩
abbrev S10 : Shape := ⟨1, ![10]⟩

abbrev nBuf : Space → Nat
  | .hbm => 49
  | .vmem => 10
  | .smem => 0
  | _ => 0

abbrev bufTy : (tb : Table) → Fin (tcTables nBuf tb) → BufTy
  | .hbm, ⟨0, _⟩ => ⟨S524288x80, .f32⟩
  | .hbm, ⟨1, _⟩ => ⟨S524288x80, .f32⟩
  | .hbm, ⟨2, _⟩ => ⟨S524288x80, .f32⟩
  | .hbm, ⟨3, _⟩ => ⟨S40960x1024, .f32⟩
  | .hbm, ⟨4, _⟩ => ⟨S40960x1024, .f32⟩
  | .hbm, ⟨5, _⟩ => ⟨S40960x1024, .f32⟩
  | .hbm, ⟨6, _⟩ => ⟨S16x128, .f32⟩
  | .hbm, ⟨7, _⟩ => ⟨S16x128, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S128, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10, .f32⟩
  | .hbm, ⟨23, _⟩ => ⟨S_, .f32⟩
  | .hbm, ⟨24, _⟩ => ⟨S10, .f32⟩
  | .hbm, ⟨25, _⟩ => ⟨S10, .i1⟩
  | .hbm, ⟨26, _⟩ => ⟨S10, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S10, .f32⟩
  | .hbm, ⟨34, _⟩ => ⟨S_, .f32⟩
  | .hbm, ⟨35, _⟩ => ⟨S_, .f32⟩
  | .hbm, ⟨36, _⟩ => ⟨S10, .f32⟩
  | .hbm, ⟨37, _⟩ => ⟨S10, .f32⟩
  | .hbm, ⟨38, _⟩ => ⟨S_, .f32⟩
  | .hbm, ⟨39, _⟩ => ⟨S_, .f32⟩
  | .hbm, ⟨40, _⟩ => ⟨S10, .f32⟩
  | .hbm, ⟨41, _⟩ => ⟨S10, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | _, _ => ⟨S524288x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S524288x80_S40960x1024 : S524288x80.ShapeCasts S40960x1024
  inb_S8x128_S8x128_0_0 : ∀ a, (![0, 0] : Fin 2 → Nat) a + S8x128.size a ≤ S8x128.size a
  h_S8x128 : 0 < S8x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  natLt_1_32 : 1 < 32
  iota_S1x128_d1_w32 : S1x128.Iotas .tc 32 [1]
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  broadcasts_S1x1_S1x128 : S1x1.Broadcasts S1x128
  iota_S8x128_d0_w32 : S8x128.Iotas .tc 32 [0]
  shapeCasts_S1x128_S1x128 : S1x128.ShapeCasts S1x128
  broadcasts_S1x128_S8x128 : S1x128.Broadcasts S8x128
  shapeCasts_S8x128_S8x128 : S8x128.ShapeCasts S8x128
  slices_S16x128_S1x128_0_0 : S16x128.Slices ![0, 0] S1x128
  shapeCasts_S1x128_S128 : S1x128.ShapeCasts S128
  slices_S16x128_S1x128_8_0 : S16x128.Slices ![8, 0] S1x128
  slices_S128_S1_10 : S128.Slices ![10] S1
  shapeCasts_S1_S_ : S1.ShapeCasts S_
  slices_S128_S10_0 : S128.Slices ![0] S10
  bcast_S_S10 : S_.BroadcastsInDim S10 (![] : Fin 0 → Fin S10.rank)
  reducesTo_S10_S_d0 : S10.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S40960x1024.size a
  hwx0_0 : ∀ i : grid0.Coords, EltTy.bits .f32 = 32 ∨ (Rect.block (s := S40960x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S40960x1024.size a
  hwx0_1 : ∀ i : grid0.Coords, EltTy.bits .f32 = 32 ∨ (Rect.block (s := S40960x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S40960x1024.size a
  hwx0_2 : ∀ i : grid0.Coords, EltTy.bits .f32 = 32 ∨ (Rect.block (s := S40960x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x80 : Shape := ⟨2, ![524288, 80]⟩
abbrev S_ : Shape := ⟨0, ![]⟩
abbrev S10 : Shape := ⟨1, ![10]⟩
abbrev S41943040 : Shape := ⟨1, ![41943040]⟩
abbrev S41943040x1 : Shape := ⟨2, ![41943040, 1]⟩
abbrev S524288x80x1 : Shape := ⟨3, ![524288, 80, 1]⟩

abbrev nBuf : Space → Nat
  | .hbm => 92
  | .vmem => 0
  | .smem => 0
  | _ => 0

abbrev bufTy : (tb : Table) → Fin (tcTables nBuf tb) → BufTy
  | .hbm, ⟨0, _⟩ => ⟨S524288x80, .f32⟩
  | .hbm, ⟨1, _⟩ => ⟨S524288x80, .f32⟩
  | .hbm, ⟨2, _⟩ => ⟨S524288x80, .f32⟩
  | .hbm, ⟨3, _⟩ => ⟨S524288x80, .f32⟩
  | .hbm, ⟨4, _⟩ => ⟨S524288x80, .f32⟩
  | .hbm, ⟨5, _⟩ => ⟨S_, .f32⟩
  | .hbm, ⟨6, _⟩ => ⟨S524288x80, .f32⟩
  | .hbm, ⟨7, _⟩ => ⟨S524288x80, .f32⟩
  | .hbm, ⟨8, _⟩ => ⟨S_, .f32⟩
  | .hbm, ⟨9, _⟩ => ⟨S524288x80, .f32⟩
  | .hbm, ⟨10, _⟩ => ⟨S524288x80, .f32⟩
  | .hbm, ⟨11, _⟩ => ⟨S524288x80, .f32⟩
  | .hbm, ⟨12, _⟩ => ⟨S524288x80, .f32⟩
  | .hbm, ⟨13, _⟩ => ⟨S_, .f32⟩
  | .hbm, ⟨14, _⟩ => ⟨S524288x80, .f32⟩
  | .hbm, ⟨15, _⟩ => ⟨S524288x80, .i1⟩
  | .hbm, ⟨16, _⟩ => ⟨S524288x80, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S524288x80, .f32⟩
  | .hbm, ⟨23, _⟩ => ⟨S524288x80, .f32⟩
  | .hbm, ⟨24, _⟩ => ⟨S524288x80, .f32⟩
  | .hbm, ⟨25, _⟩ => ⟨S524288x80, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S524288x80, .i32⟩
  | .hbm, ⟨30, _⟩ => ⟨S524288x80, .i32⟩
  | .hbm, ⟨31, _⟩ => ⟨S_, .i32⟩
  | .hbm, ⟨32, _⟩ => ⟨S524288x80, .i32⟩
  | .hbm, ⟨33, _⟩ => ⟨S524288x80, .i32⟩
  | .hbm, ⟨34, _⟩ => ⟨S_, .f32⟩
  | .hbm, ⟨35, _⟩ => ⟨S10, .f32⟩
  | .hbm, ⟨36, _⟩ => ⟨S41943040, .i32⟩
  | .hbm, ⟨37, _⟩ => ⟨S41943040, .f32⟩
  | .hbm, ⟨38, _⟩ => ⟨S_, .i32⟩
  | .hbm, ⟨39, _⟩ => ⟨S41943040, .i32⟩
  | .hbm, ⟨40, _⟩ => ⟨S41943040, .i1⟩
  | .hbm, ⟨41, _⟩ => ⟨S_, .i32⟩
  | .hbm, ⟨42, _⟩ => ⟨S41943040, .i32⟩
  | .hbm, ⟨43, _⟩ => ⟨S41943040, .i32⟩
  | .hbm, ⟨44, _⟩ => ⟨S41943040, .i32⟩
  | .hbm, ⟨45, _⟩ => ⟨S41943040x1, .i32⟩
  | .hbm, ⟨46, _⟩ => ⟨S10, .f32⟩
  | .hbm, ⟨47, _⟩ => ⟨S_, .f32⟩
  | .hbm, ⟨48, _⟩ => ⟨S10, .f32⟩
  | .hbm, ⟨49, _⟩ => ⟨S10, .i1⟩
  | .hbm, ⟨50, _⟩ => ⟨S10, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S10, .f32⟩
  | .hbm, ⟨57, _⟩ => ⟨S10, .f32⟩
  | .hbm, ⟨58, _⟩ => ⟨S_, .f32⟩
  | .hbm, ⟨59, _⟩ => ⟨S_, .f32⟩
  | .hbm, ⟨60, _⟩ => ⟨S10, .f32⟩
  | .hbm, ⟨61, _⟩ => ⟨S10, .f32⟩
  | .hbm, ⟨62, _⟩ => ⟨S_, .i32⟩
  | .hbm, ⟨63, _⟩ => ⟨S524288x80, .i32⟩
  | .hbm, ⟨64, _⟩ => ⟨S524288x80, .i1⟩
  | .hbm, ⟨65, _⟩ => ⟨S_, .i32⟩
  | .hbm, ⟨66, _⟩ => ⟨S524288x80, .i32⟩
  | .hbm, ⟨67, _⟩ => ⟨S524288x80, .i32⟩
  | .hbm, ⟨68, _⟩ => ⟨S524288x80, .i32⟩
  | .hbm, ⟨69, _⟩ => ⟨S524288x80x1, .i32⟩
  | .hbm, ⟨70, _⟩ => ⟨S524288x80, .f32⟩
  | .hbm, ⟨71, _⟩ => ⟨S524288x80, .f32⟩
  | .hbm, ⟨72, _⟩ => ⟨S_, .f32⟩
  | .hbm, ⟨73, _⟩ => ⟨S_, .f32⟩
  | .hbm, ⟨74, _⟩ => ⟨S524288x80, .f32⟩
  | .hbm, ⟨75, _⟩ => ⟨S524288x80, .f32⟩
  | .hbm, ⟨76, _⟩ => ⟨S_, .f32⟩
  | .hbm, ⟨77, _⟩ => ⟨S524288x80, .f32⟩
  | .hbm, ⟨78, _⟩ => ⟨S524288x80, .f32⟩
  | .hbm, ⟨79, _⟩ => ⟨S524288x80, .f32⟩
  | .hbm, ⟨80, _⟩ => ⟨S524288x80, .f32⟩
  | .hbm, ⟨81, _⟩ => ⟨S524288x80, .f32⟩
  | .hbm, ⟨82, _⟩ => ⟨S524288x80, .f32⟩
  | .hbm, ⟨83, _⟩ => ⟨S524288x80, .f32⟩
  | .hbm, ⟨84, _⟩ => ⟨S524288x80, .f32⟩
  | .hbm, ⟨85, _⟩ => ⟨S524288x80, .f32⟩
  | .hbm, ⟨86, _⟩ => ⟨S524288x80, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S524288x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_v21 : Ref sig .tc := ⟨.hbm, 39, rfl⟩
abbrev main_v22 : Ref sig .tc := ⟨.hbm, 40, rfl⟩
abbrev main_c_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_call1_v0 : Ref sig .tc := ⟨.hbm, 59, rfl⟩
abbrev main_call1_v1 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_c_14 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_16 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_17 : Ref sig .tc := ⟨.hbm, 87, rfl⟩
abbrev main_v58 : Ref sig .tc := ⟨.hbm, 88, rfl⟩
abbrev main_v59 : Ref sig .tc := ⟨.hbm, 89, rfl⟩
abbrev main_cst_18 : Ref sig .tc := ⟨.hbm, 90, rfl⟩
abbrev main_v60 : Ref sig .tc := ⟨.hbm, 91, rfl⟩

abbrev nD : Nat := 1
abbrev τ : Topo := Topo.v7x

variable {F : FTy → Type} [FloatOps F]

class Facts₀ : Prop where
  bcast_S_S524288x80 : S_.BroadcastsInDim S524288x80 (![] : Fin 0 → Fin S524288x80.rank)
  reducesTo_S524288x80_S_d0_1 : S524288x80.ReducesTo [0, 1] S_
  h_S_ : 0 < S_.numel
  bcast_S_S10 : S_.BroadcastsInDim S10 (![] : Fin 0 → Fin S10.rank)
  shapeCasts_S524288x80_S41943040 : S524288x80.ShapeCasts S41943040
  bcast_S_S41943040 : S_.BroadcastsInDim S41943040 (![] : Fin 0 → Fin S41943040.rank)
  bcast_S41943040_S41943040x1_0 : S41943040.BroadcastsInDim S41943040x1 (![0] : Fin 1 → Fin S41943040x1.rank)
  reducesTo_S10_S_d0 : S10.ReducesTo [0] S_
  bcast_S524288x80_S524288x80x1_0_1 : S524288x80.BroadcastsInDim S524288x80x1 (![0, 1] : Fin 2 → Fin S524288x80x1.rank)
  scatter_S10_S41943040x1_S41943040_n_0_0_1_wf : ScatterDims.WF S10 S41943040x1 S41943040 [] [0] [0] 1
  gather_S10_S524288x80x1_S524288x80_n_0_n_n_0_2_1_wf : GatherDims.WF S10 S524288x80x1 S524288x80 [] [0] [] [0] [] 2 ![1]

variable [Facts₀]

def scatter_S10_S41943040x1_S41943040_n_0_0_1 : ScatterDims S10 S41943040x1 S41943040 where
  updateWindowDims := []
  insertedWindowDims := [0]
  scatterDimsToOperandDims := [0]
  indexVectorDim := 1
  wf := scatter_S10_S41943040x1_S41943040_n_0_0_1_wf
def gather_S10_S524288x80x1_S524288x80_n_0_n_n_0_2_1 : GatherDims S10 S524288x80x1 S524288x80 where
  offsetDims := []
  collapsedSliceDims := [0]
  operandBatchingDims := []
  startIndicesBatchingDims := []
  startIndexMap := [0]
  indexVectorDim := 2
  sliceSizes := ![1]
  wf := gather_S10_S524288x80x1_S524288x80_n_0_n_n_0_2_1_wf

class Facts : Prop extends Facts₀ where

variable [Facts]
-- ==== Proof.KPiece.lean ====
/-
  What one grid point leaves in the two accumulator blocks, and the accumulators after every point.

  The kernel keeps, per core, an [8,128] block of bin counts and an [8,128] block of per-bin entropy sums. At a point it
  computes, from its three [512,1024] input blocks, a 1×128 row of contributions (lane b < 10: bin b; lane 10 of the
  count row: the number of valid elements), spreads the row over the 8 sublanes masked to sublane 0, and adds it to the
  block; the first point of a core first resets both blocks to zero. So after point n the block is the ordered sum of the
  contributions of the core's points up to n, started from the zero block (`accC`, `accB`), by induction on the point.
-/
import proofs.«172126_j1829656068729_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

theorem offs_zero : (![0, 0] : Fin 2 → Nat) = fun _ => 0 := funext fun a => by fin_cases a <;> rfl

/-- The lane numbers 0 … 127 along the row. -/
abbrev lanes : IVec S1x128 32 := iota .tc S1x128 32 [1] iota_S1x128_d1_w32

/-- The validity block of a label block, and the bin words of a prediction and a target block. -/
abbrev validOf (x2 : Vec F S512x1024 .f32) : FVec F S512x1024 .f32 := k0_pay8 x2
abbrev binsOf (x0 x1 : Vec F S512x1024 .f32) : IVec S512x1024 32 := k0_pay9 x0 x1

/-- The 1×128 row of bin counts one point contributes: bin b in lane b, for the ten bins in order. -/
def cntRow (x0 x1 x2 : Vec F S512x1024 .f32) : FVec F S1x128 .f32 :=
  k0_pay46 (validOf x2) (binsOf x0 x1) lanes
    (k0_pay39 (validOf x2) (binsOf x0 x1) lanes
      (k0_pay32 (validOf x2) (binsOf x0 x1) lanes
        (k0_pay25 (validOf x2) (binsOf x0 x1) lanes
          (k0_pay18 (validOf x2) (binsOf x0 x1) lanes (k0_pay11 (F := F)) (k0_pay13 x0 x1))
          (k0_pay20 (binsOf x0 x1)))
        (k0_pay27 (binsOf x0 x1)))
      (k0_pay34 (binsOf x0 x1)))
    (k0_pay41 (binsOf x0 x1))

/-- The count block after a point: the block before plus the count row (with the valid total in lane 10) on sublane 0. -/
def stepC (x0 x1 x2 : Vec F S512x1024 .f32) (acc : Vec F S8x128 .f32) : Vec F S8x128 .f32 :=
  k0_pay2 lanes (cntRow x0 x1 x2) (k0_pay48 (validOf x2)) acc

/-- CASE B, counts: a later point of a core adds its row to what the block held. -/
theorem countsB (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S8x128 .f32) (h5 : a5.IsWhole) (a6 : Memref sig .tc .vmem S8x128 .f32) (h6 : a6.IsWhole) (hc : ¬cond0_0 i)
    (x0 x1 x2 : Vec F S512x1024 .f32) (xo3 xo4 : Vec F S8x128 .f32) :
    out0_B_3 c i a2 h2 a3 h3 a4 h4 a5 h5 a6 h6 hc x0 x1 x2 xo3 xo4 = stepC x0 x1 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero offs_zero]
  simp only [View.readAt_eq_ld, h2.read_unread, h3.read_unread, h4.read_unread, h5.read_unread, h6.read_unread,
    View.ld_unit_zero (S := S512x1024) offs_zero, View.ld_unit_zero (S := S8x128) offs_zero]
  rfl

/-- CASE A, counts: a core's first point stores the zero block, reads it back and adds its row to it. -/
theorem countsA (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S8x128 .f32) (h5 : a5.IsWhole) (a6 : Memref sig .tc .vmem S8x128 .f32) (h6 : a6.IsWhole) (hc : cond0_0 i)
    (x0 x1 x2 : Vec F S512x1024 .f32) :
    out0_A_3 c i a2 h2 a3 h3 a4 h4 a5 h5 a6 h6 hc x0 x1 x2 = stepC x0 x1 x2 (k0_pay4 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S8x128) offs_zero, View.readCov_unit_zero (S := S8x128) _ offs_zero]
  simp only [View.readAt_eq_ld, h2.read_unread, h3.read_unread, h4.read_unread, h5.read_unread, h6.read_unread,
    View.ld_unit_zero (S := S512x1024) offs_zero, View.ld_unit_zero (S := S8x128) offs_zero]
  rfl

/-- The cross-entropy block of a prediction and a target block. -/
abbrev bceOf (x0 x1 : Vec F S512x1024 .f32) : FVec F S512x1024 .f32 := k0_pay10 x0 x1

/-- The 1×128 row of per-bin entropy sums one point contributes. -/
def bceRow (x0 x1 x2 : Vec F S512x1024 .f32) : FVec F S1x128 .f32 :=
  k0_pay47 (validOf x2) (binsOf x0 x1) (bceOf x0 x1) lanes
    (k0_pay40 (validOf x2) (binsOf x0 x1) (bceOf x0 x1) lanes
      (k0_pay33 (validOf x2) (binsOf x0 x1) (bceOf x0 x1) lanes
        (k0_pay26 (validOf x2) (binsOf x0 x1) (bceOf x0 x1) lanes
          (k0_pay19 (validOf x2) (binsOf x0 x1) (bceOf x0 x1) lanes (k0_pay12 (F := F)) (k0_pay13 x0 x1))
          (k0_pay20 (binsOf x0 x1)))
        (k0_pay27 (binsOf x0 x1)))
      (k0_pay34 (binsOf x0 x1)))
    (k0_pay41 (binsOf x0 x1))

/-- The entropy block after a point: the block before plus the entropy row on sublane 0. -/
def stepB (x0 x1 x2 : Vec F S512x1024 .f32) (acc : Vec F S8x128 .f32) : Vec F S8x128 .f32 :=
  k0_pay3 (bceRow x0 x1 x2) acc

/-- CASE B, entropy sums. -/
theorem sumsB (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S8x128 .f32) (h5 : a5.IsWhole) (a6 : Memref sig .tc .vmem S8x128 .f32) (h6 : a6.IsWhole) (hc : ¬cond0_0 i)
    (x0 x1 x2 : Vec F S512x1024 .f32) (xo3 xo4 : Vec F S8x128 .f32) :
    out0_B_4 c i a2 h2 a3 h3 a4 h4 a5 h5 a6 h6 hc x0 x1 x2 xo3 xo4 = stepB x0 x1 x2 xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero offs_zero]
  simp only [View.readAt_eq_ld, h2.read_unread, h3.read_unread, h4.read_unread, h5.read_unread, h6.read_unread,
    View.ld_unit_zero (S := S512x1024) offs_zero, View.ld_unit_zero (S := S8x128) offs_zero]
  rfl

/-- CASE A, entropy sums. -/
theorem sumsA (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S8x128 .f32) (h5 : a5.IsWhole) (a6 : Memref sig .tc .vmem S8x128 .f32) (h6 : a6.IsWhole) (hc : cond0_0 i)
    (x0 x1 x2 : Vec F S512x1024 .f32) :
    out0_A_4 c i a2 h2 a3 h3 a4 h4 a5 h5 a6 h6 hc x0 x1 x2 = stepB x0 x1 x2 (k0_pay5 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S8x128) offs_zero, View.readCov_unit_zero (S := S8x128) _ offs_zero]
  simp only [View.readAt_eq_ld, h2.read_unread, h3.read_unread, h4.read_unread, h5.read_unread, h6.read_unread,
    View.ld_unit_zero (S := S512x1024) offs_zero, View.ld_unit_zero (S := S8x128) offs_zero]
  rfl

/-- The two accumulator blocks after point `n`: at a core's first point (n ≡ 0 mod 40) the zero block plus the point's
    row, otherwise the block after point `n − 1` plus the point's row. -/
def accs (c : Dev nD) : (n : ℕ) → n < cfg0.N → Vec F S8x128 .f32 × Vec F S8x128 .f32
  | 0, h => (stepC (iblk m c 0 ⟨0, h⟩) (iblk m c 1 ⟨0, h⟩) (iblk m c 2 ⟨0, h⟩) (k0_pay4 (F := F)),
             stepB (iblk m c 0 ⟨0, h⟩) (iblk m c 1 ⟨0, h⟩) (iblk m c 2 ⟨0, h⟩) (k0_pay5 (F := F)))
  | n + 1, h =>
    if (n + 1) % 40 = 0 then
      (stepC (iblk m c 0 ⟨n + 1, h⟩) (iblk m c 1 ⟨n + 1, h⟩) (iblk m c 2 ⟨n + 1, h⟩) (k0_pay4 (F := F)),
       stepB (iblk m c 0 ⟨n + 1, h⟩) (iblk m c 1 ⟨n + 1, h⟩) (iblk m c 2 ⟨n + 1, h⟩) (k0_pay5 (F := F)))
    else
      (stepC (iblk m c 0 ⟨n + 1, h⟩) (iblk m c 1 ⟨n + 1, h⟩) (iblk m c 2 ⟨n + 1, h⟩) (accs c n (Nat.lt_of_succ_lt h)).1,
       stepB (iblk m c 0 ⟨n + 1, h⟩) (iblk m c 1 ⟨n + 1, h⟩) (iblk m c 2 ⟨n + 1, h⟩) (accs c n (Nat.lt_of_succ_lt h)).2)

/-- What the staging buffers of the two outputs hold after point `n` is the pair of accumulators: by induction on the
    point, each case's stores read back as above. -/
theorem outsAt_eq (c : Dev nD) : ∀ (n : ℕ) (h : n < cfg0.N), outsAt0 m c n h = accs m c n h
  | 0, h => by
    rw [outsAt0_A m c ⟨0, h⟩ rfl, countsA, sumsA]
    rfl
  | n + 1, h => by
    by_cases h0 : (n + 1) % 40 = 0
    · rw [outsAt0_A m c ⟨n + 1, h⟩ h0, countsA, sumsA]
      show _ = if (n + 1) % 40 = 0 then _ else _
      rw [if_pos h0]
    · rw [outsAt0_B m c ⟨n + 1, h⟩ h0, countsB, sumsB]
      show _ = if (n + 1) % 40 = 0 then _ else _
      rw [if_neg h0]
      show (stepC _ _ _ (outsAt0 m c n _).1, stepB _ _ _ (outsAt0 m c n _).2) = _
      rw [outsAt_eq c n]

end Cert.KernelIdeal.KVal

end
-- ==== Proof.Spec.lean ====
/-
  The gradient-harmonised binary cross-entropy loss, as ONE formula over the extended reals.

  Each of the N = 524288·80 elements e carries a prediction p, a target t and a label weight l. From them:
    • its validity  v(e) = 1 if l > 0 else 0;
    • its gradient magnitude g = |σ(p) − t| and its bin  bin(e) = clamp(⌊10·g⌋, 0, 9)  (a 32-bit word in [0, 9]);
    • its stable cross-entropy  bce(e) = max(p, 0) − p·t + log(1 + exp(−|p|)).
  Per bin b: the count  cnt(b) = Σ_e [bin(e) = b]·v(e)  and the entropy mass  bsm(b) = Σ_e ([bin(e) = b]·v(e))·bce(e);
  the total  tot = Σ_e v(e).  A non-empty bin weighs  max(tot,1) / max(cnt(b),1), an empty one 0; with n the number of
  non-empty bins the loss is

      ( Σ_b  (weight(b) / max(n,1)) · bsm(b) ) / max(tot,1)                                    (binned form)
    = ( Σ_e  ((weight(bin e) · v(e)) / max(n,1)) · bce(e) ) / max(tot,1)                       (elementwise form).

  The two forms are equal on the extended reals because every coefficient weight(b)/max(n,1) is a NON-NEGATIVE REAL:
  multiplication by such a coefficient distributes over any sum of extended reals, so nothing has to be assumed about
  bce(e). This module fixes the definitions; the equality is proved in `Proof/Algebra.lean`.
-/
import Idealize.ShloMosaic.PureOps.Ideal
import Idealize.ShloMosaic.PureOps.Ideal.Laws
import Idealize.ShloMosaic.Lib.ValueIdx

noncomputable section

namespace Cert.Ghm

open Idealize.ShloMosaic Idealize.ShloMosaic.ValueIdx

/-- The element index: 524288 rows of 80 classes. -/
abbrev SE : Shape := ⟨2, ![524288, 80]⟩
/-- The bin index: ten bins. -/
abbrev SB : Shape := ⟨1, ![10]⟩

/-- The word `+0.0` and the word `1.0`, as extended reals (never evaluated here). -/
abbrev z : EReal := Ideal.ofBits .f32 0x00000000#32
abbrev one : EReal := Ideal.ofBits .f32 0x3F800000#32
abbrev ten : EReal := Ideal.ofBits .f32 0x41200000#32

/-- Validity of a label weight: `1` where it is positive, else `0`. -/
def vld (l : EReal) : EReal := (((Ideal.cmp .ogt l z).toNat : ℝ) : EReal)

/-- The bin word of an element: `⌊10·|σ(p) − t|⌋` as a signed 32-bit integer, clamped into `[0, 9]`. -/
def bin (p t : EReal) : BitVec 32 :=
  IntOp.minsi 9#32 (IntOp.maxsi 0#32 (Ideal.fptosi 32 (Ideal.liftRound Int.floor (max (Ideal.logistic p - t) (-(Ideal.logistic p - t)) * ten))))

/-- The bin as a number below ten. -/
def binIdx (p t : EReal) : SB.Idx := ix1 ⟨min (bin p t).toInt.toNat (10 - 1), by omega⟩

/-- Membership of an element in bin `b`, as `1` or `0`. -/
def msk (b : SB.Idx) (p t : EReal) : EReal :=
  ((((IntOp.cmpi .eq (bin p t) (BitVec.ofNat 32 (b 0).val)).setWidth 32).toInt : ℝ) : EReal)

/-- The stable binary cross-entropy with logits. -/
def bce (p t : EReal) : EReal := (max p z - p * t) + Ideal.log1p (Ideal.exp (z - max p (-p)))

variable (x0 x1 x2 : SE.Idx → EReal)

/-- Valid elements of bin `b`. -/
def cnt (b : SB.Idx) : EReal := ∑ e : SE.Idx, msk b (x0 e) (x1 e) * vld (x2 e)
/-- All valid elements. -/
def tot : EReal := ∑ e : SE.Idx, vld (x2 e)
/-- The entropy mass of bin `b`. -/
def bsm (b : SB.Idx) : EReal := ∑ e : SE.Idx, (msk b (x0 e) (x1 e) * vld (x2 e)) * bce (x0 e) (x1 e)

/-- The weight of a bin with count `c` when `T` elements are valid. -/
def wgt (c T : EReal) : EReal := Scalar.select (Ideal.cmp .ogt c z) (Ideal.div (max T one) (max c one)) z
/-- The number of non-empty bins, at least one. -/
def nne (c : SB.Idx → EReal) : EReal := max (z + ∑ b : SB.Idx, (((Ideal.cmp .ogt (c b) z).toNat : ℝ) : EReal)) one

/-- The loss in binned form, from counts `c`, total `T` and entropy masses `B`. -/
def lossBinned (c : SB.Idx → EReal) (T : EReal) (B : SB.Idx → EReal) : EReal :=
  Ideal.div (z + ∑ b : SB.Idx, Ideal.div (wgt (c b) T) (nne c) * B b) (max T one) * one

/-- The loss in elementwise form, from counts `c` and total `T`. -/
def lossElementwise (c : SB.Idx → EReal) (T : EReal) : EReal :=
  Ideal.div (z + ∑ e : SE.Idx, Ideal.div (wgt (c (binIdx (x0 e) (x1 e))) T * vld (x2 e)) (nne c) * bce (x0 e) (x1 e)) (max T one) * one

end Cert.Ghm

end
-- ==== Proof.KLane.lean ====
/-
  One grid point's contribution, lane by lane, over the extended reals.

  Every per-bin quantity is formed the same way: a [512,1024] block X is summed along its lanes, then along its
  sublanes, the one number is spread over a 1×128 row and multiplied by the one-hot row of the bin's lane. Read at
  lane l this is  [l = b] · Σ_j X j  (`spreadSum_apply`, `hot_apply`), so the row built for the ten bins (and lane 10 for
  the valid total) holds at lane b exactly bin b's sum: all other terms are 0 · (a sum) = 0, and adding 0 changes
  nothing on the extended reals. The block entries themselves are the element functions of the specification
  (`Cert.Ghm.msk`, `vld`, `bce`) of the three input blocks' entries.
-/
import proofs.«172126_j1829656068729_2_alg».proof.Proof.KPiece
import proofs.«172126_j1829656068729_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.KernelIdeal.KVal

open Cert.KernelIdeal Cert.KernelIdeal.Gen

/-- The sum of all entries of a block as the kernel takes it — along the lanes, then along the sublanes — spread over a row. -/
def spreadSum (X : FVec Ideal S512x1024 .f32) : FVec Ideal S1x128 .f32 :=
  broadcastTo S1x128 (shapeCast S1x1 (multiReduction .add [0] S1 (shapeCast S512x1
    (multiReduction .add [1] S512 X 0x00000000#32 reduces_S512x1024_S512 (.inl rfl) rfl) shapeCasts_S512_S512x1)
    0x00000000#32 reduces_S512x1_S1 (.inl rfl) rfl) shapeCasts_S1_S1x1) broadcasts_S1x1_S1x128

/-- A column read: the [512] vector viewed [512,1] holds at (r, 0) its entry r. -/
theorem column_apply (v : FVec Ideal S512 .f32) (r : Fin 512) (q : Fin 1) :
    shapeCast S512x1 v shapeCasts_S512_S512x1 (ix2 r q) = v (ix1 r) :=
  shapeCast_apply v shapeCasts_S512_S512x1 _ _ (by
    have hq : q.val = 0 := by omega
    rw [Shape.rowMajor_val_one, Shape.rowMajor_val_two]
    show r.val = r.val * 1 + q.val
    omega)

/-- The lane sums of a block, then their sum over the sublanes, is the sum of all its entries. -/
theorem spreadSum_apply (X : FVec Ideal S512x1024 .f32) (l : Fin 128) :
    spreadSum X (ix2 (0 : Fin 1) l) = ∑ j : S512x1024.Idx, X j := by
  unfold spreadSum
  refine (broadcastTo_apply _ broadcasts_S1x1_S1x128 (ix2 (0 : Fin 1) l) (ix2 (0 : Fin 1) (0 : Fin 1)) (fun a => by
    match a with
    | ⟨0, _⟩ => rfl
    | ⟨1, _⟩ => rfl)).trans ?_
  refine (shapeCast_addUnit_apply (n := 1) ![1] _ shapeCasts_S1_S1x1 _).trans ?_
  refine (Ideal.multiReduction_add_total _ _ reduces_S512x1_S1 (fun b => by fin_cases b; rfl) (.inl rfl) rfl _).trans ?_
  rw [sum_idx2, sum_idx2]
  refine Finset.sum_congr rfl fun r _ => ?_
  rw [Fin.sum_univ_one, column_apply]
  refine (Ideal.multiReduction_add_single X _ reduces_S512x1024_S512 (.inl rfl) rfl (ix1 r)).trans ?_
  refine Finset.sum_congr rfl fun k _ => congrArg X ?_
  funext a
  match a with
  | ⟨0, _⟩ => rfl
  | ⟨1, _⟩ => rfl

/-! ## One-hot rows and the sublane mask -/

/-- A comparison bit widened to 32 bits, read as a signed integer: `1` on equal words, else `0`. -/
theorem hot_val (l k : ℕ) (hl : l < 128) (hk : k < 128) :
    ((((IntOp.cmpi .eq (BitVec.ofNat 32 l) (BitVec.ofNat 32 k)).setWidth 32).toInt : ℝ) : EReal) = if l = k then 1 else 0 := by
  show ((((BitVec.ofBool (BitVec.ofNat 32 l == BitVec.ofNat 32 k)).setWidth 32).toInt : ℝ) : EReal) = _
  by_cases h : l = k
  · subst h
    rw [if_pos rfl, beq_self_eq_true, show ((BitVec.ofBool true).setWidth 32).toInt = 1 from by decide]
    norm_num
  · have hne : (BitVec.ofNat 32 l == BitVec.ofNat 32 k) = false := by
      rw [beq_eq_false_iff_ne]
      intro e
      have := congrArg BitVec.toNat e
      simp only [BitVec.toNat_ofNat] at this
      omega
    rw [if_neg h, hne, show ((BitVec.ofBool false).setWidth 32).toInt = 0 from by decide]
    norm_num

/-- Lane `l` of the lane-number row holds `l`. -/
theorem lanes_apply (q : Fin 1) (l : Fin 128) : lanes (ix2 q l) = BitVec.ofNat 32 l.val :=
  iota_single_apply .tc S1x128 32 1 iota_S1x128_d1_w32 (ix2 q l)

/-- The one-hot row of lane `k`. -/
def hot (k : ℕ) : FVec Ideal S1x128 .f32 :=
  sitofp .f32 (extui 32 (cmpi .eq lanes (broadcast S1x128 (BitVec.ofNat 32 k))) natLt_1_32)

theorem hot_apply (k : ℕ) (hk : k < 128) (q : Fin 1) (l : Fin 128) : hot k (ix2 q l) = if l.val = k then 1 else 0 := by
  show ((((IntOp.cmpi .eq (lanes (ix2 q l)) (BitVec.ofNat 32 k)).setWidth 32).toInt : ℝ) : EReal) = _
  rw [lanes_apply]
  exact hot_val l.val k l.isLt hk

/-- A row with bin `k`'s block sum added in lane `k`. -/
def addBin (acc : FVec Ideal S1x128 .f32) (k : ℕ) (X : FVec Ideal S512x1024 .f32) : FVec Ideal S1x128 .f32 :=
  addf acc (mulf (hot k) (spreadSum X))

theorem hot_hit (k : ℕ) (hk : k < 128) (q : Fin 1) (l : Fin 128) (h : l.val = k) : hot k (ix2 q l) = 1 := by
  rw [hot_apply k hk, if_pos h]

theorem hot_miss (k : ℕ) (hk : k < 128) (q : Fin 1) (l : Fin 128) (h : l.val ≠ k) : hot k (ix2 q l) = 0 := by
  rw [hot_apply k hk, if_neg h]

theorem addBin_apply (acc : FVec Ideal S1x128 .f32) (k : ℕ) (X : FVec Ideal S512x1024 .f32) (l : Fin 128) :
    addBin acc k X (ix2 (0 : Fin 1) l) = acc (ix2 (0 : Fin 1) l) + hot k (ix2 (0 : Fin 1) l) * ∑ j : S512x1024.Idx, X j := by
  show acc (ix2 (0 : Fin 1) l) + hot k (ix2 (0 : Fin 1) l) * spreadSum X (ix2 (0 : Fin 1) l) = _
  rw [spreadSum_apply]

/-- The sublane mask is `1` on sublane 0. -/
theorem sublane0 (l : Fin 128) : (k0_pay1 (F := Ideal)) (ix2 (0 : Fin 8) l) = 1 := by
  show ((((IntOp.cmpi .eq (iota .tc S8x128 32 [0] iota_S8x128_d0_w32 (ix2 (0 : Fin 8) l)) (BitVec.ofNat 32 0)).setWidth 32).toInt : ℝ) : EReal) = _
  rw [iota_single_apply .tc S8x128 32 0 iota_S8x128_d0_w32 (ix2 (0 : Fin 8) l)]
  exact (hot_val 0 0 (by omega) (by omega)).trans (if_pos rfl)

/-! ## The blocks' entries are the specification's element functions -/

variable (x0 x1 x2 : Vec Ideal S512x1024 .f32)

/-- A one-bit word widened to 32 bits and read signed is the bit read unsigned. -/
theorem bit_signed (b : BitVec 1) : (((b.setWidth 32).toInt : ℝ) : EReal) = ((b.toNat : ℝ) : EReal) := by
  rcases BitVec.eq_zero_or_eq_one b with h | h <;> subst h <;> norm_num <;> decide

theorem validOf_apply (j : S512x1024.Idx) : validOf x2 j = Cert.Ghm.vld (x2 j) := by
  unfold validOf k0_pay8
  rw [shapeCast_self]
  exact bit_signed _

theorem binsOf_apply (j : S512x1024.Idx) : binsOf x0 x1 j = Cert.Ghm.bin (x0 j) (x1 j) := by
  unfold binsOf k0_pay9 k0_pay6 k0_pay7
  rw [shapeCast_self, shapeCast_self]
  rfl

theorem bceOf_apply (j : S512x1024.Idx) : bceOf x0 x1 j = Cert.Ghm.bce (x0 j) (x1 j) := by
  unfold bceOf k0_pay10 k0_pay6 k0_pay7
  rw [shapeCast_self, shapeCast_self]
  rfl

/-! ## The rows -/

/-- Bin k's membership-times-validity block, for the ten bins. -/
abbrev M0 : FVec Ideal S512x1024 .f32 := k0_pay14 (validOf x2) (k0_pay13 x0 x1)
abbrev M1 : FVec Ideal S512x1024 .f32 := k0_pay16 (validOf x2) (binsOf x0 x1)
abbrev M2 : FVec Ideal S512x1024 .f32 := k0_pay21 (validOf x2) (k0_pay20 (binsOf x0 x1))
abbrev M3 : FVec Ideal S512x1024 .f32 := k0_pay23 (validOf x2) (binsOf x0 x1)
abbrev M4 : FVec Ideal S512x1024 .f32 := k0_pay28 (validOf x2) (k0_pay27 (binsOf x0 x1))
abbrev M5 : FVec Ideal S512x1024 .f32 := k0_pay30 (validOf x2) (binsOf x0 x1)
abbrev M6 : FVec Ideal S512x1024 .f32 := k0_pay35 (validOf x2) (k0_pay34 (binsOf x0 x1))
abbrev M7 : FVec Ideal S512x1024 .f32 := k0_pay37 (validOf x2) (binsOf x0 x1)
abbrev M8 : FVec Ideal S512x1024 .f32 := k0_pay42 (validOf x2) (k0_pay41 (binsOf x0 x1))
abbrev M9 : FVec Ideal S512x1024 .f32 := k0_pay44 (validOf x2) (binsOf x0 x1)

/-- Each entry of bin k's block is [bin = k] · validity of the element there. -/
theorem mask_entry (k : Fin 10) (j : S512x1024.Idx) :
    ((((IntOp.cmpi .eq (binsOf x0 x1 j) (BitVec.ofNat 32 k.val)).setWidth 32).toInt : ℝ) : EReal) * validOf x2 j
      = Cert.Ghm.msk (ix1 k) (x0 j) (x1 j) * Cert.Ghm.vld (x2 j) := by
  rw [binsOf_apply, validOf_apply]
  rfl

theorem M0_apply (j : S512x1024.Idx) : M0 x0 x1 x2 j = Cert.Ghm.msk (ix1 (0 : Fin 10)) (x0 j) (x1 j) * Cert.Ghm.vld (x2 j) := mask_entry x0 x1 x2 0 j
theorem M1_apply (j : S512x1024.Idx) : M1 x0 x1 x2 j = Cert.Ghm.msk (ix1 (1 : Fin 10)) (x0 j) (x1 j) * Cert.Ghm.vld (x2 j) := mask_entry x0 x1 x2 1 j
theorem M2_apply (j : S512x1024.Idx) : M2 x0 x1 x2 j = Cert.Ghm.msk (ix1 (2 : Fin 10)) (x0 j) (x1 j) * Cert.Ghm.vld (x2 j) := mask_entry x0 x1 x2 2 j
theorem M3_apply (j : S512x1024.Idx) : M3 x0 x1 x2 j = Cert.Ghm.msk (ix1 (3 : Fin 10)) (x0 j) (x1 j) * Cert.Ghm.vld (x2 j) := mask_entry x0 x1 x2 3 j
theorem M4_apply (j : S512x1024.Idx) : M4 x0 x1 x2 j = Cert.Ghm.msk (ix1 (4 : Fin 10)) (x0 j) (x1 j) * Cert.Ghm.vld (x2 j) := mask_entry x0 x1 x2 4 j
theorem M5_apply (j : S512x1024.Idx) : M5 x0 x1 x2 j = Cert.Ghm.msk (ix1 (5 : Fin 10)) (x0 j) (x1 j) * Cert.Ghm.vld (x2 j) := mask_entry x0 x1 x2 5 j
theorem M6_apply (j : S512x1024.Idx) : M6 x0 x1 x2 j = Cert.Ghm.msk (ix1 (6 : Fin 10)) (x0 j) (x1 j) * Cert.Ghm.vld (x2 j) := mask_entry x0 x1 x2 6 j
theorem M7_apply (j : S512x1024.Idx) : M7 x0 x1 x2 j = Cert.Ghm.msk (ix1 (7 : Fin 10)) (x0 j) (x1 j) * Cert.Ghm.vld (x2 j) := mask_entry x0 x1 x2 7 j
theorem M8_apply (j : S512x1024.Idx) : M8 x0 x1 x2 j = Cert.Ghm.msk (ix1 (8 : Fin 10)) (x0 j) (x1 j) * Cert.Ghm.vld (x2 j) := mask_entry x0 x1 x2 8 j
theorem M9_apply (j : S512x1024.Idx) : M9 x0 x1 x2 j = Cert.Ghm.msk (ix1 (9 : Fin 10)) (x0 j) (x1 j) * Cert.Ghm.vld (x2 j) := mask_entry x0 x1 x2 9 j

/-- The count row is the zero row with the ten bins' block sums added, each in its lane. -/
theorem cntRow_eq : cntRow x0 x1 x2 =
    addBin (addBin (addBin (addBin (addBin (addBin (addBin (addBin (addBin (addBin (k0_pay11 (F := Ideal))
      0 (M0 x0 x1 x2)) 1 (M1 x0 x1 x2)) 2 (M2 x0 x1 x2)) 3 (M3 x0 x1 x2)) 4 (M4 x0 x1 x2)) 5 (M5 x0 x1 x2))
      6 (M6 x0 x1 x2)) 7 (M7 x0 x1 x2)) 8 (M8 x0 x1 x2)) 9 (M9 x0 x1 x2) := rfl

/-- The zero row holds `+0.0` in every lane. -/
theorem zeroRow_apply (l : Fin 128) : (k0_pay11 (F := Ideal)) (ix2 (0 : Fin 1) l) = Cert.Ghm.z := rfl

/-- The count row with the valid total in lane 10, read at lane `l`: the zero word plus each block sum times its lane's one-hot value. -/
theorem fullRow_apply (l : Fin 128) :
    addBin (cntRow x0 x1 x2) 10 (validOf x2) (ix2 (0 : Fin 1) l) =
      Cert.Ghm.z + hot 0 (ix2 (0 : Fin 1) l) * (∑ j, M0 x0 x1 x2 j) + hot 1 (ix2 (0 : Fin 1) l) * (∑ j, M1 x0 x1 x2 j) + hot 2 (ix2 (0 : Fin 1) l) * (∑ j, M2 x0 x1 x2 j) + hot 3 (ix2 (0 : Fin 1) l) * (∑ j, M3 x0 x1 x2 j) + hot 4 (ix2 (0 : Fin 1) l) * (∑ j, M4 x0 x1 x2 j) + hot 5 (ix2 (0 : Fin 1) l) * (∑ j, M5 x0 x1 x2 j) + hot 6 (ix2 (0 : Fin 1) l) * (∑ j, M6 x0 x1 x2 j) + hot 7 (ix2 (0 : Fin 1) l) * (∑ j, M7 x0 x1 x2 j) + hot 8 (ix2 (0 : Fin 1) l) * (∑ j, M8 x0 x1 x2 j) + hot 9 (ix2 (0 : Fin 1) l) * (∑ j, M9 x0 x1 x2 j) + hot 10 (ix2 (0 : Fin 1) l) * (∑ j, validOf x2 j) := by
  rw [cntRow_eq, addBin_apply _ 10, addBin_apply _ 9, addBin_apply _ 8, addBin_apply _ 7, addBin_apply _ 6, addBin_apply _ 5, addBin_apply _ 4, addBin_apply _ 3, addBin_apply _ 2, addBin_apply _ 1, addBin_apply _ 0, zeroRow_apply]

/-- Lane k < 10 of that row: only bin k's term survives (the others are 0 · a sum = 0). -/
theorem fullRow_bin (k : ℕ) (hk : k < 10) (l : Fin 128) (hl : l.val = k) :
    addBin (cntRow x0 x1 x2) 10 (validOf x2) (ix2 (0 : Fin 1) l) =
      Cert.Ghm.z + ∑ j : S512x1024.Idx, Cert.Ghm.msk (ix1 (⟨k, hk⟩ : Fin 10)) (x0 j) (x1 j) * Cert.Ghm.vld (x2 j) := by
  rw [fullRow_apply]
  interval_cases k
  · rw [hot_hit 0 (by norm_num) _ l hl, hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M0_apply x0 x1 x2 j)
  · rw [hot_miss 0 (by norm_num) _ l (by omega), hot_hit 1 (by norm_num) _ l hl, hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M1_apply x0 x1 x2 j)
  · rw [hot_miss 0 (by norm_num) _ l (by omega), hot_miss 1 (by norm_num) _ l (by omega), hot_hit 2 (by norm_num) _ l hl, hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M2_apply x0 x1 x2 j)
  · rw [hot_miss 0 (by norm_num) _ l (by omega), hot_miss 1 (by norm_num) _ l (by omega), hot_miss 2 (by norm_num) _ l (by omega), hot_hit 3 (by norm_num) _ l hl, hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M3_apply x0 x1 x2 j)
  · rw [hot_miss 0 (by norm_num) _ l (by omega), hot_miss 1 (by norm_num) _ l (by omega), hot_miss 2 (by norm_num) _ l (by omega), hot_miss 3 (by norm_num) _ l (by omega), hot_hit 4 (by norm_num) _ l hl, hot_miss 5 (by norm_num) _ l (by omega), hot_miss 6 (by norm_num) _ l (by omega), hot_miss 7 (by norm_num) _ l (by omega), hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M4_apply x0 x1 x2 j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_hit 5 (by norm_num) _ l hl, hot_miss 6 (by norm_num) _ l (by omega), hot_miss 7 (by norm_num) _ l (by omega), hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M5_apply x0 x1 x2 j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_hit 6 (by norm_num) _ l hl, hot_miss 7 (by norm_num) _ l (by omega), hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M6_apply x0 x1 x2 j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_hit 7 (by norm_num) _ l hl, hot_miss 8 (by norm_num) _ l (by omega), hot_miss 9 (by norm_num) _ l (by omega), hot_miss 10 (by norm_num) _ l (by omega)]
    simp only [zero_mul, one_mul, add_zero]
    exact congrArg (Cert.Ghm.z + ·) (Finset.sum_congr rfl fun j _ => M7_apply x0 x1 x2 j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_hit 8 (by norm_num) _ l hl, hot_miss 9 (by norm_num) _ l (by omega), hot_miss 10 (by norm_num) _ l (by omega)]
    simp only [zero_mul, one_mul, add_zero]
    exact congrArg (Cert.Ghm.z + ·) (Finset.sum_congr rfl fun j _ => M8_apply x0 x1 x2 j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_hit 9 (by norm_num) _ l hl, hot_miss 10 (by norm_num) _ l (by omega)]
    simp only [zero_mul, one_mul, add_zero]
    exact congrArg (Cert.Ghm.z + ·) (Finset.sum_congr rfl fun j _ => M9_apply x0 x1 x2 j)

/-- Lane 10 of that row: the zero word plus the block's number of valid elements. -/
theorem fullRow_tot (l : Fin 128) (hl : l.val = 10) :
    addBin (cntRow x0 x1 x2) 10 (validOf x2) (ix2 (0 : Fin 1) l) = Cert.Ghm.z + ∑ j : S512x1024.Idx, Cert.Ghm.vld (x2 j) := by
  rw [fullRow_apply]
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega), hot_hit 10 (by norm_num) _ l hl]
    simp only [zero_mul, one_mul, add_zero]
    exact congrArg (Cert.Ghm.z + ·) (Finset.sum_congr rfl fun j _ => validOf_apply x2 j)

end Cert.KernelIdeal.KVal

end
-- ==== Proof.KLane2.lean ====
/-
  The accumulator blocks after a point, read on sublane 0.

  The count block gains, at (0, l), the count row's lane l (with the valid total added in lane 10); the entropy block
  gains the entropy row's lane l, which is the zero word plus, for a bin's lane, the sum over the block of
  [bin = b] · validity · cross-entropy.
-/
import proofs.«172126_j1829656068729_2_alg».proof.Proof.KLane

noncomputable section

open Idealize.ShloMosaic Idealize.ShloMosaic.TcCoe Idealize.ShloMosaic.ValueIdx

namespace Cert.KernelIdeal.KVal

open Cert.KernelIdeal Cert.KernelIdeal.Gen

/-- The count store's value on sublane 0, for any row and any validity block. -/
theorem countStore_apply (R : FVec Ideal S1x128 .f32) (V : FVec Ideal S512x1024 .f32) (acc : Vec Ideal S8x128 .f32) (l : Fin 128) :
    k0_pay2 lanes R (k0_pay48 V) acc (ix2 (0 : Fin 8) l) = acc (ix2 (0 : Fin 8) l) + addBin R 10 V (ix2 (0 : Fin 1) l) := by
  unfold k0_pay2 k0_pay48
  show shapeCast S8x128 acc shapeCasts_S8x128_S8x128 (ix2 (0 : Fin 8) l) + broadcastTo S8x128 (shapeCast S1x128
      (addBin R 10 V) shapeCasts_S1x128_S1x128) broadcasts_S1x128_S8x128 (ix2 (0 : Fin 8) l) * (k0_pay1 (F := Ideal)) (ix2 (0 : Fin 8) l) = _
  rw [shapeCast_self, shapeCast_self, broadcastTo_1b_ab_apply, sublane0, mul_one]

/-- The entropy store's value on sublane 0, for any row. -/
theorem sumStore_apply (R : FVec Ideal S1x128 .f32) (acc : Vec Ideal S8x128 .f32) (l : Fin 128) :
    k0_pay3 R acc (ix2 (0 : Fin 8) l) = acc (ix2 (0 : Fin 8) l) + R (ix2 (0 : Fin 1) l) := by
  unfold k0_pay3
  show shapeCast S8x128 acc shapeCasts_S8x128_S8x128 (ix2 (0 : Fin 8) l) + broadcastTo S8x128 (shapeCast S1x128
      R shapeCasts_S1x128_S1x128) broadcasts_S1x128_S8x128 (ix2 (0 : Fin 8) l) * (k0_pay1 (F := Ideal)) (ix2 (0 : Fin 8) l) = _
  rw [shapeCast_self, shapeCast_self, broadcastTo_1b_ab_apply, sublane0, mul_one]

variable (x0 x1 x2 : Vec Ideal S512x1024 .f32)

/-- Sublane 0 of the count block after a point: what it held plus the row. -/
theorem stepC_apply (acc : Vec Ideal S8x128 .f32) (l : Fin 128) :
    stepC x0 x1 x2 acc (ix2 (0 : Fin 8) l) = acc (ix2 (0 : Fin 8) l) + addBin (cntRow x0 x1 x2) 10 (validOf x2) (ix2 (0 : Fin 1) l) := by
  unfold stepC
  exact countStore_apply _ _ _ _

theorem stepB_apply (acc : Vec Ideal S8x128 .f32) (l : Fin 128) :
    stepB x0 x1 x2 acc (ix2 (0 : Fin 8) l) = acc (ix2 (0 : Fin 8) l) + bceRow x0 x1 x2 (ix2 (0 : Fin 1) l) := by
  unfold stepB
  exact sumStore_apply _ _ _

end Cert.KernelIdeal.KVal

end
-- ==== Proof.KLaneB.lean ====
/-
  One grid point's contribution to the entropy masses, lane by lane.

  The entropy row is built like the count row: for each of the ten bins, the bin's membership-times-validity block
  is multiplied entry by entry with the cross-entropy block, summed, spread over the row and multiplied by the
  one-hot row of the bin's lane. At lane b < 10 only bin b's term survives, so the row holds there the sum over the
  block of  ([bin = b] · validity) · cross-entropy.
-/
import proofs.«172126_j1829656068729_2_alg».proof.Proof.KLane

noncomputable section

open Idealize.ShloMosaic Idealize.ShloMosaic.TcCoe Idealize.ShloMosaic.ValueIdx

namespace Cert.KernelIdeal.KVal

open Cert.KernelIdeal Cert.KernelIdeal.Gen

variable (x0 x1 x2 : Vec Ideal S512x1024 .f32)

/-- The entropy row is the zero row with the ten bins' entropy sums added, each in its lane. -/
theorem bceRow_eq : bceRow x0 x1 x2 =
    addBin (addBin (addBin (addBin (addBin (addBin (addBin (addBin (addBin (addBin (k0_pay12 (F := Ideal))
      0 (mulf (M0 x0 x1 x2) (bceOf x0 x1))) 1 (mulf (M1 x0 x1 x2) (bceOf x0 x1))) 2 (mulf (M2 x0 x1 x2) (bceOf x0 x1)))
      3 (mulf (M3 x0 x1 x2) (bceOf x0 x1))) 4 (mulf (M4 x0 x1 x2) (bceOf x0 x1))) 5 (mulf (M5 x0 x1 x2) (bceOf x0 x1)))
      6 (mulf (M6 x0 x1 x2) (bceOf x0 x1))) 7 (mulf (M7 x0 x1 x2) (bceOf x0 x1))) 8 (mulf (M8 x0 x1 x2) (bceOf x0 x1)))
      9 (mulf (M9 x0 x1 x2) (bceOf x0 x1)) := rfl

/-- The zero row holds `+0.0` in every lane. -/
theorem zeroRowB_apply (l : Fin 128) : (k0_pay12 (F := Ideal)) (ix2 (0 : Fin 1) l) = Cert.Ghm.z := rfl

/-- The entropy row read at lane `l`: the zero word plus each bin's entropy sum times its lane's one-hot value. -/
theorem bceRow_apply (l : Fin 128) :
    bceRow x0 x1 x2 (ix2 (0 : Fin 1) l) =
      Cert.Ghm.z + hot 0 (ix2 (0 : Fin 1) l) * (∑ j, mulf (M0 x0 x1 x2) (bceOf x0 x1) j)
        + hot 1 (ix2 (0 : Fin 1) l) * (∑ j, mulf (M1 x0 x1 x2) (bceOf x0 x1) j)
        + hot 2 (ix2 (0 : Fin 1) l) * (∑ j, mulf (M2 x0 x1 x2) (bceOf x0 x1) j)
        + hot 3 (ix2 (0 : Fin 1) l) * (∑ j, mulf (M3 x0 x1 x2) (bceOf x0 x1) j)
        + hot 4 (ix2 (0 : Fin 1) l) * (∑ j, mulf (M4 x0 x1 x2) (bceOf x0 x1) j)
        + hot 5 (ix2 (0 : Fin 1) l) * (∑ j, mulf (M5 x0 x1 x2) (bceOf x0 x1) j)
        + hot 6 (ix2 (0 : Fin 1) l) * (∑ j, mulf (M6 x0 x1 x2) (bceOf x0 x1) j)
        + hot 7 (ix2 (0 : Fin 1) l) * (∑ j, mulf (M7 x0 x1 x2) (bceOf x0 x1) j)
        + hot 8 (ix2 (0 : Fin 1) l) * (∑ j, mulf (M8 x0 x1 x2) (bceOf x0 x1) j)
        + hot 9 (ix2 (0 : Fin 1) l) * (∑ j, mulf (M9 x0 x1 x2) (bceOf x0 x1) j) := by
  rw [bceRow_eq, addBin_apply _ 9, addBin_apply _ 8, addBin_apply _ 7, addBin_apply _ 6, addBin_apply _ 5, addBin_apply _ 4, addBin_apply _ 3, addBin_apply _ 2, addBin_apply _ 1, addBin_apply _ 0, zeroRowB_apply]

/-- An entry of a bin's block times the cross-entropy block is the specification's summand of that bin. -/
theorem prod_entry (M : FVec Ideal S512x1024 .f32) (b : Fin 10)
    (hM : ∀ j, M j = Cert.Ghm.msk (ix1 b) (x0 j) (x1 j) * Cert.Ghm.vld (x2 j)) (j : S512x1024.Idx) :
    mulf M (bceOf x0 x1) j = (Cert.Ghm.msk (ix1 b) (x0 j) (x1 j) * Cert.Ghm.vld (x2 j)) * Cert.Ghm.bce (x0 j) (x1 j) := by
  show M j * bceOf x0 x1 j = _
  rw [hM j, bceOf_apply]

/-- Lane k < 10 of the entropy row: only bin k's term survives (the others are 0 · a sum = 0). -/
theorem bceRow_bin (k : ℕ) (hk : k < 10) (l : Fin 128) (hl : l.val = k) :
    bceRow x0 x1 x2 (ix2 (0 : Fin 1) l) =
      Cert.Ghm.z + ∑ j : S512x1024.Idx,
        (Cert.Ghm.msk (ix1 (⟨k, hk⟩ : Fin 10)) (x0 j) (x1 j) * Cert.Ghm.vld (x2 j)) * Cert.Ghm.bce (x0 j) (x1 j) := by
  rw [bceRow_apply]
  interval_cases k
  · rw [hot_hit 0 (by norm_num) _ l hl, hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 0 (M0_apply x0 x1 x2) j)
  · rw [hot_miss 0 (by norm_num) _ l (by omega), hot_hit 1 (by norm_num) _ l hl, hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 1 (M1_apply x0 x1 x2) j)
  · rw [hot_miss 0 (by norm_num) _ l (by omega), hot_miss 1 (by norm_num) _ l (by omega), hot_hit 2 (by norm_num) _ l hl, hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 2 (M2_apply x0 x1 x2) j)
  · rw [hot_miss 0 (by norm_num) _ l (by omega), hot_miss 1 (by norm_num) _ l (by omega), hot_miss 2 (by norm_num) _ l (by omega), hot_hit 3 (by norm_num) _ l hl, hot_miss 4 (by norm_num) _ l (by omega), hot_miss 5 (by norm_num) _ l (by omega), hot_miss 6 (by norm_num) _ l (by omega), hot_miss 7 (by norm_num) _ l (by omega), hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 3 (M3_apply x0 x1 x2) j)
  · rw [hot_miss 0 (by norm_num) _ l (by omega), hot_miss 1 (by norm_num) _ l (by omega), hot_miss 2 (by norm_num) _ l (by omega), hot_miss 3 (by norm_num) _ l (by omega), hot_hit 4 (by norm_num) _ l hl, hot_miss 5 (by norm_num) _ l (by omega), hot_miss 6 (by norm_num) _ l (by omega), hot_miss 7 (by norm_num) _ l (by omega), hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 4 (M4_apply x0 x1 x2) j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_hit 5 (by norm_num) _ l hl, hot_miss 6 (by norm_num) _ l (by omega), hot_miss 7 (by norm_num) _ l (by omega), hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 5 (M5_apply x0 x1 x2) j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_hit 6 (by norm_num) _ l hl, hot_miss 7 (by norm_num) _ l (by omega), hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 6 (M6_apply x0 x1 x2) j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_hit 7 (by norm_num) _ l hl, hot_miss 8 (by norm_num) _ l (by omega), hot_miss 9 (by norm_num) _ l (by omega)]
    simp only [zero_mul, one_mul, add_zero]
    exact congrArg (Cert.Ghm.z + ·) (Finset.sum_congr rfl fun j _ => prod_entry x0 x1 x2 _ 7 (M7_apply x0 x1 x2) j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_hit 8 (by norm_num) _ l hl, hot_miss 9 (by norm_num) _ l (by omega)]
    simp only [zero_mul, one_mul, add_zero]
    exact congrArg (Cert.Ghm.z + ·) (Finset.sum_congr rfl fun j _ => prod_entry x0 x1 x2 _ 8 (M8_apply x0 x1 x2) j)
  · rw [hot_miss 0 (by norm_num) _ l (by omega), hot_miss 1 (by norm_num) _ l (by omega), hot_miss 2 (by norm_num) _ l (by omega), hot_miss 3 (by norm_num) _ l (by omega), hot_miss 4 (by norm_num) _ l (by omega), hot_miss 5 (by norm_num) _ l (by omega), hot_miss 6 (by norm_num) _ l (by omega), hot_miss 7 (by norm_num) _ l (by omega), hot_miss 8 (by norm_num) _ l (by omega), hot_hit 9 (by norm_num) _ l hl]
    simp only [zero_mul, one_mul, add_zero]
    exact congrArg (Cert.Ghm.z + ·) (Finset.sum_congr rfl fun j _ => prod_entry x0 x1 x2 _ 9 (M9_apply x0 x1 x2) j)

end Cert.KernelIdeal.KVal

end
-- ==== Proof.KArr.lean ====
/-
  From the accumulators to the two result arrays.

  Each of the two [16,128] result arrays is cut into two [8,128] blocks, one per core; block q is written back once,
  after the core's last point 40·q + 39, with what the accumulator then holds. Every index (r, l) lies in block r / 8 at
  sublane r mod 8, so each array ends holding, at (r, l), the accumulator after point 40·(r / 8) + 39 at (r mod 8, l).
-/
import proofs.«172126_j1829656068729_2_alg».proof.Proof.KPiece
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- The accumulators after a point do not depend on how the point is written. -/
theorem accs_congr (c : Dev nD) {n n' : ℕ} (e : n = n') (h : n < cfg0.N) (h' : n' < cfg0.N) :
    accs m c n h = accs m c n' h' := by
  subst e; rfl

theorem lastPoint_lt (r : ℕ) (hr : r < 16) : 40 * (r / 8) + 39 < cfg0.N := by
  rw [show cfg0.N = 80 from N_0]; omega

/-- The count array after the run. -/
def finalC (c : Dev nD) : S16x128.Idx → Elt F .f32 := fun i =>
  (accs m c (40 * ((i 0).val / 8) + 39) (lastPoint_lt _ (i 0).isLt)).1
    (ix2 (⟨(i 0).val % 8, Nat.mod_lt _ (by norm_num)⟩ : Fin 8) (⟨(i 1).val, (i 1).isLt⟩ : Fin 128))

/-- The entropy-sum array after the run. -/
def finalB (c : Dev nD) : S16x128.Idx → Elt F .f32 := fun i =>
  (accs m c (40 * ((i 0).val / 8) + 39) (lastPoint_lt _ (i 0).isLt)).2
    (ix2 (⟨(i 0).val % 8, Nat.mod_lt _ (by norm_num)⟩ : Fin 8) (⟨(i 1).val, (i 1).isLt⟩ : Fin 128))

/-- The output windows' index maps over the grid: block t / 40, the whole lane axis. -/
theorem out_index : ∀ t : Fin cfg0.N, win0_3.index t (0 : Fin 2) = t.val / 40 ∧ win0_3.index t (1 : Fin 2) = 0
    ∧ win0_4.index t (0 : Fin 2) = t.val / 40 ∧ win0_4.index t (1 : Fin 2) = 0 :=
  (by decide +kernel : ∀ t : Fin grid0.N, _)

/-- The arrays read at an index of a core's last point's block. -/
theorem finalC_at (c : Dev nD) (t : Fin cfg0.N) (ht : t.val % 40 = 39) (i : S16x128.Idx) (p : Fin 8) (l : Fin 128)
    (h0 : (i 0).val = 8 * (t.val / 40) + p.val) (h1 : (i 1).val = l.val) :
    finalC m c i = (accs m c t.val t.isLt).1 (ix2 p l) := by
  have hN : t.val < 80 := lt_of_lt_of_eq t.isLt (show cfg0.N = 80 from N_0)
  unfold finalC
  rw [accs_congr m c (show 40 * ((i 0).val / 8) + 39 = t.val by omega) _ t.isLt]
  refine congrArg (accs m c t.val t.isLt).1 (funext fun a => ?_)
  match a with
  | ⟨0, _⟩ => exact Fin.ext (by show (i 0).val % 8 = p.val; omega)
  | ⟨1, _⟩ => exact Fin.ext h1

theorem finalB_at (c : Dev nD) (t : Fin cfg0.N) (ht : t.val % 40 = 39) (i : S16x128.Idx) (p : Fin 8) (l : Fin 128)
    (h0 : (i 0).val = 8 * (t.val / 40) + p.val) (h1 : (i 1).val = l.val) :
    finalB m c i = (accs m c t.val t.isLt).2 (ix2 p l) := by
  have hN : t.val < 80 := lt_of_lt_of_eq t.isLt (show cfg0.N = 80 from N_0)
  unfold finalB
  rw [accs_congr m c (show 40 * ((i 0).val / 8) + 39 = t.val by omega) _ t.isLt]
  refine congrArg (accs m c t.val t.isLt).2 (funext fun a => ?_)
  match a with
  | ⟨0, _⟩ => exact Fin.ext (by show (i 0).val % 8 = p.val; omega)
  | ⟨1, _⟩ => exact Fin.ext h1

/-- What a core's last point writes back is its block of the count array. -/
theorem flushedC (c : Dev nD) (t : Fin cfg0.N) (hf : (cfg0.win 3).flush t = true) :
    (dats m 0 c).flushed 3 t = ((cfg0.win 3).blk t).view.read (Elt F) (finalC m c) := by
  have ht : t.val % 40 = 39 := (flush0_3 t).mp hf
  obtain ⟨e0, e1, -, -⟩ := out_index t
  show (cfg0.win 3).cut (grid0.coords t) ((dats m 0 c).after 3 t) = _
  rw [after0_3, outsAt_eq]
  funext j
  show (accs m c t.val t.isLt).1 j = finalC m c (((cfg0.win 3).blk t).view.emb j)
  have hj0 : (j 0).val < 8 := (j 0).isLt
  have hj1 : (j 1).val < 128 := (j 1).isLt
  rw [finalC_at m c t ht _ ⟨(j 0).val, hj0⟩ ⟨(j 1).val, hj1⟩
    (by show win0_3.index t (0 : Fin 2) * 8 + 1 * (j 0).val = _; rw [e0]; show _ = 8 * (t.val / 40) + (j 0).val; omega)
    (by show win0_3.index t (1 : Fin 2) * 128 + 1 * (j 1).val = _; rw [e1]; show _ = (j 1).val; omega)]
  refine congrArg (accs m c t.val t.isLt).1 (funext fun a => ?_)
  match a with
  | ⟨0, _⟩ => rfl
  | ⟨1, _⟩ => rfl

theorem flushedB (c : Dev nD) (t : Fin cfg0.N) (hf : (cfg0.win 4).flush t = true) :
    (dats m 0 c).flushed 4 t = ((cfg0.win 4).blk t).view.read (Elt F) (finalB m c) := by
  have ht : t.val % 40 = 39 := (flush0_4 t).mp hf
  obtain ⟨-, -, e0, e1⟩ := out_index t
  show (cfg0.win 4).cut (grid0.coords t) ((dats m 0 c).after 4 t) = _
  rw [after0_4, outsAt_eq]
  funext j
  show (accs m c t.val t.isLt).2 j = finalB m c (((cfg0.win 4).blk t).view.emb j)
  have hj0 : (j 0).val < 8 := (j 0).isLt
  have hj1 : (j 1).val < 128 := (j 1).isLt
  rw [finalB_at m c t ht _ ⟨(j 0).val, hj0⟩ ⟨(j 1).val, hj1⟩
    (by show win0_4.index t (0 : Fin 2) * 8 + 1 * (j 0).val = _; rw [e0]; show _ = 8 * (t.val / 40) + (j 0).val; omega)
    (by show win0_4.index t (1 : Fin 2) * 128 + 1 * (j 1).val = _; rw [e1]; show _ = (j 1).val; omega)]
  refine congrArg (accs m c t.val t.isLt).2 (funext fun a => ?_)
  match a with
  | ⟨0, _⟩ => rfl
  | ⟨1, _⟩ => rfl

/-- An index whose row lies in block t / 40 is in point t's block. -/
theorem mem_blockC (t : Fin cfg0.N) (i : S16x128.Idx) (h0 : t.val / 40 * 8 ≤ (i 0).val ∧ (i 0).val < t.val / 40 * 8 + 8) :
    i ∈ ((cfg0.win 3).blk t).view.set := by
  obtain ⟨e0, e1, -, -⟩ := out_index t
  have hi1 : (i 1).val < 128 := (i 1).isLt
  show i ∈ ((View.whole main_v3_0).slice (win0_3.rect t)).set
  rw [View.set_slice_whole, Rect.mem_set_unit]
  intro a
  match a with
  | ⟨0, _⟩ =>
    show win0_3.index t (0 : Fin 2) * 8 ≤ (i 0).val ∧ (i 0).val < win0_3.index t (0 : Fin 2) * 8 + 8
    rw [e0]; exact h0
  | ⟨1, _⟩ =>
    show win0_3.index t (1 : Fin 2) * 128 ≤ (i 1).val ∧ (i 1).val < win0_3.index t (1 : Fin 2) * 128 + 128
    rw [e1]; omega

/-- Every index of an output array lies in the block its core's last point writes back. -/
theorem coveredC (i : S16x128.Idx) : ∃ t : Fin cfg0.N, (cfg0.win 3).flush t = true ∧ i ∈ ((cfg0.win 3).blk t).view.set := by
  have hi0 : (i 0).val < 16 := (i 0).isLt
  refine ⟨⟨40 * ((i 0).val / 8) + 39, lastPoint_lt _ hi0⟩, (flush0_3 _).mpr (by show (40 * ((i 0).val / 8) + 39) % 40 = 39; omega), ?_⟩
  refine mem_blockC _ i ?_
  show (40 * ((i 0).val / 8) + 39) / 40 * 8 ≤ (i 0).val ∧ (i 0).val < (40 * ((i 0).val / 8) + 39) / 40 * 8 + 8
  omega

theorem mem_blockB (t : Fin cfg0.N) (i : S16x128.Idx) (h0 : t.val / 40 * 8 ≤ (i 0).val ∧ (i 0).val < t.val / 40 * 8 + 8) :
    i ∈ ((cfg0.win 4).blk t).view.set := by
  obtain ⟨-, -, e0, e1⟩ := out_index t
  have hi1 : (i 1).val < 128 := (i 1).isLt
  show i ∈ ((View.whole main_v3_1).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    rw [e0]; exact h0
  | ⟨1, _⟩ =>
    show win0_4.index t (1 : Fin 2) * 128 ≤ (i 1).val ∧ (i 1).val < win0_4.index t (1 : Fin 2) * 128 + 128
    rw [e1]; omega

theorem coveredB (i : S16x128.Idx) : ∃ t : Fin cfg0.N, (cfg0.win 4).flush t = true ∧ i ∈ ((cfg0.win 4).blk t).view.set := by
  have hi0 : (i 0).val < 16 := (i 0).isLt
  refine ⟨⟨40 * ((i 0).val / 8) + 39, lastPoint_lt _ hi0⟩, (flush0_4 _).mpr (by show (40 * ((i 0).val / 8) + 39) % 40 = 39; omega), ?_⟩
  refine mem_blockB _ i ?_
  show (40 * ((i 0).val / 8) + 39) / 40 * 8 ≤ (i 0).val ∧ (i 0).val < (40 * ((i 0).val / 8) + 39) / 40 * 8 + 8
  omega

/-- So the two arrays end at `finalC` and `finalB`. -/
theorem arrC (c : Dev nD) : (dats m 0 c).arrAt 3 cfg0.N = finalC m c :=
  (dats m 0 c).arrAt_eq_of_cover 3 (finalC m c) (flushedC m c) (coveredC)

theorem arrB (c : Dev nD) : (dats m 0 c).arrAt 4 cfg0.N = finalB m c :=
  (dats m 0 c).arrAt_eq_of_cover 4 (finalB m c) (flushedB m c) (coveredB)

end Cert.KernelIdeal.KVal

end
-- ==== Proof.Sums.lean ====
/-
  Re-indexing of finite sums: a sum over 40960 rows of 1024 lanes as 80 blocks of 512 rows, the two halves of a run
  of 80 terms, a sum read through a change of shape, and the closed form of an accumulator that restarts every 40
  steps. No sum is evaluated; every step is a bijection of index sets or a splitting of a range.
-/
import proofs.«172126_j1829656068729_2_alg».proof.Proof.Spec
import Idealize.ShloMosaic.Lib.ValueIdx
import Idealize.ShloMosaic.Lib.Pipeline.Value
import Idealize.ShloMosaic.PureOps.Ideal.Laws

noncomputable section

namespace Cert.Ghm

open Idealize.ShloMosaic Idealize.ShloMosaic.ValueIdx

/-- A row below 40960 is a block `t` below 80 and a row `a` below 512 within it: row `512·t + a`. -/
def blockEquiv : Fin 80 × Fin 512 ≃ Fin 40960 where
  toFun p := ⟨512 * p.1.val + p.2.val, by have := p.1.isLt; have := p.2.isLt; omega⟩
  invFun r := (⟨r.val / 512, by have := r.isLt; omega⟩, ⟨r.val % 512, by omega⟩)
  left_inv p := by
    rcases p with ⟨t, a⟩
    have ht := t.isLt
    have ha := a.isLt
    refine Prod.ext (Fin.ext ?_) (Fin.ext ?_)
    · show (512 * t.val + a.val) / 512 = t.val
      omega
    · show (512 * t.val + a.val) % 512 = a.val
      omega
  right_inv r := by
    refine Fin.ext ?_
    show 512 * (r.val / 512) + r.val % 512 = r.val
    omega

/-- A sum over 40960 × 1024 is the sum over 80 blocks of the sums over 512 × 1024, block `t` holding the rows
    `512·t + j₀`. -/
theorem sum_blocks {M : Type*} [AddCommMonoid M] (f : (⟨2, ![40960, 1024]⟩ : Shape).Idx → M) :
    ∑ J, f J = ∑ t : Fin 80, ∑ j : (⟨2, ![512, 1024]⟩ : Shape).Idx,
      f (ix2 (⟨512 * t.val + (j 0).val, by have := idx2_lt0 j; have := t.isLt; omega⟩ : Fin 40960)
        (⟨(j 1).val, idx2_lt1 j⟩ : Fin 1024)) := by
  rw [sum_idx2 f, ← Equiv.sum_comp blockEquiv, Fintype.sum_prod_type]
  refine Finset.sum_congr rfl (fun t _ => ?_)
  refine Eq.trans ?_ (sum_idx2 _).symm
  exact Finset.sum_congr rfl (fun a _ => Finset.sum_congr rfl (fun b _ => rfl))

/-- Two runs of 40 terms, each started from zero, are one run of 80 terms. -/
theorem sum_two_cores (K : ℕ → EReal) :
    (z + ∑ s ∈ Finset.range 40, K s) + (z + ∑ s ∈ Finset.range 40, K (40 + s)) = ∑ t : Fin 80, K t.val := by
  have hz : z = 0 := Ideal.ofBits_zero_f32
  rw [hz, zero_add, zero_add, Fin.sum_univ_eq_sum_range (fun n => K n) 80]
  exact (Finset.sum_range_add K 40 40).symm

/-- A value read through a change of shape has the same sum: the change of shape is a bijection of the index sets. -/
theorem sum_shapeCast {s t : Shape} {M : Type} [AddCommMonoid M] (x : s.Idx → M) (h : s.ShapeCasts t) :
    ∑ J : t.Idx, shapeCast t x h J = ∑ e : s.Idx, x e :=
  Equiv.sum_comp (Shape.reshapeEquiv h) x

/-- An accumulator that restarts at every multiple of 40 and otherwise adds the next term holds, at step `n`, the
    start value plus the terms since the last restart. -/
theorem acc_closed (z0 : EReal) (K : ℕ → EReal) (a : ℕ → EReal) (ha0 : ∀ n, n % 40 = 0 → a n = z0 + K n)
    (haS : ∀ n, (n + 1) % 40 ≠ 0 → a (n + 1) = a n + K (n + 1)) :
    ∀ n, a n = z0 + ∑ s ∈ Finset.range (n % 40 + 1), K (n - n % 40 + s) := by
  intro n
  induction n with
  | zero =>
    rw [ha0 0 rfl]
    simp
  | succ n ih =>
    by_cases h : (n + 1) % 40 = 0
    · rw [ha0 (n + 1) h, h, Finset.sum_range_one]
      rfl
    · have e1 : (n + 1) % 40 = n % 40 + 1 := by omega
      have e2 : (n + 1) - (n + 1) % 40 = n - n % 40 := by omega
      have e3 : n - n % 40 + (n % 40 + 1) = n + 1 := by omega
      rw [haS n h, ih, e2, e1, Finset.sum_range_succ _ (n % 40 + 1), e3, add_assoc]

/-- The same closed form when the two rules are only known below a bound `N`. -/
theorem acc_closed_lt (N : ℕ) (z0 : EReal) (K : ℕ → EReal) (a : ℕ → EReal)
    (ha0 : ∀ n, n < N → n % 40 = 0 → a n = z0 + K n)
    (haS : ∀ n, n + 1 < N → (n + 1) % 40 ≠ 0 → a (n + 1) = a n + K (n + 1)) :
    ∀ n, n < N → a n = z0 + ∑ s ∈ Finset.range (n % 40 + 1), K (n - n % 40 + s) := by
  intro n
  induction n with
  | zero =>
    intro hN
    rw [ha0 0 hN rfl]
    simp
  | succ n ih =>
    intro hN
    by_cases h : (n + 1) % 40 = 0
    · rw [ha0 (n + 1) hN h, h, Finset.sum_range_one]
      rfl
    · have e1 : (n + 1) % 40 = n % 40 + 1 := by omega
      have e2 : (n + 1) - (n + 1) % 40 = n - n % 40 := by omega
      have e3 : n - n % 40 + (n % 40 + 1) = n + 1 := by omega
      rw [haS n hN h, ih (Nat.lt_of_succ_lt hN), e2, e1, Finset.sum_range_succ _ (n % 40 + 1), e3, add_assoc]

end Cert.Ghm

end
-- ==== Proof.KBlock.lean ====
/-
  What the kernel's three input windows read: each is a change of shape of one argument array, and its block at
  grid point `t` holds the rows `512·t + j₀` of that 40960 × 1024 array. Summed over the 80 points, a function of
  the three blocks' entries is the sum of that function over all 524288 × 80 elements of the arguments.
-/
import proofs.«172126_j1829656068729_2_alg».proof.Proof.Gen.KernelIdeal.Frame
import proofs.«172126_j1829656068729_2_alg».proof.Proof.Spec
import proofs.«172126_j1829656068729_2_alg».proof.Proof.Sums
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.KVal

open Cert.KernelIdeal Cert.KernelIdeal.Gen

variable (m : (ℓ : Loc nD τ sig) → Buf (Elt Ideal) ℓ)

/-- The three input windows' block index at grid point `t` is `(t, 0)`. -/
theorem in_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A grid point is below 80. -/
theorem point_lt (t : Fin cfg0.N) : t.val < 80 := lt_of_lt_of_eq t.isLt N_0

/-- Row `512·t + j₀` of a block lies in the array. -/
theorem blk_row_lt (t : Fin cfg0.N) (j : S512x1024.Idx) : 512 * t.val + (j 0).val < 40960 := by
  have := point_lt t
  have := idx2_lt0 j
  omega

/-- Window 0's array is argument 0 read at the shape 40960 × 1024. -/
theorem V_v0 (c : Dev nD) : (V m c main_v0 : S40960x1024.Idx → EReal)
    = shapeCast S40960x1024 (m ((c.tc : Thread nD τ).loc main_arg0)) shapeCasts_S524288x80_S40960x1024 := by
  show StableHlo.after hostOps0 (fun b => m (c, b)) (Proc.devRef .tc main_v0) = _
  after_results
  rfl

/-- Window 1's array is argument 1 read at the shape 40960 × 1024. -/
theorem V_v1 (c : Dev nD) : (V m c main_v1 : S40960x1024.Idx → EReal)
    = shapeCast S40960x1024 (m ((c.tc : Thread nD τ).loc main_arg1)) shapeCasts_S524288x80_S40960x1024 := by
  show StableHlo.after hostOps0 (fun b => m (c, b)) (Proc.devRef .tc main_v1) = _
  after_results
  rfl

/-- Window 2's array is argument 2 read at the shape 40960 × 1024. -/
theorem V_v2 (c : Dev nD) : (V m c main_v2 : S40960x1024.Idx → EReal)
    = shapeCast S40960x1024 (m ((c.tc : Thread nD τ).loc main_arg2)) shapeCasts_S524288x80_S40960x1024 := by
  show StableHlo.after hostOps0 (fun b => m (c, b)) (Proc.devRef .tc main_v2) = _
  after_results
  rfl

/-- Window 0's block at point `t`, at `j`, is its array at row `512·t + j₀`, lane `j₁`. -/
theorem iblk0_apply (c : Dev nD) (t : Fin cfg0.N) (j : S512x1024.Idx) :
    iblk m c 0 t j = V m c main_v0 (ix2 (⟨512 * t.val + (j 0).val, blk_row_lt t j⟩ : Fin 40960)
      (⟨(j 1).val, idx2_lt1 j⟩ : Fin 1024)) := by
  have hi := in_index t
  unfold iblk
  rw [View.read_apply]
  show V m c main_v0 _ = V m c main_v0 _
  congr 1
  funext a
  apply Fin.ext
  match a with
  | ⟨0, _⟩ =>
    show win0_0.index t 0 * 512 + 1 * (j 0).val = 512 * t.val + (j 0).val
    rw [hi.1]; omega
  | ⟨1, _⟩ =>
    show win0_0.index t 1 * 1024 + 1 * (j 1).val = (j 1).val
    rw [hi.2.1]; omega

/-- Window 1's block at point `t`, at `j`, is its array at row `512·t + j₀`, lane `j₁`. -/
theorem iblk1_apply (c : Dev nD) (t : Fin cfg0.N) (j : S512x1024.Idx) :
    iblk m c 1 t j = V m c main_v1 (ix2 (⟨512 * t.val + (j 0).val, blk_row_lt t j⟩ : Fin 40960)
      (⟨(j 1).val, idx2_lt1 j⟩ : Fin 1024)) := by
  have hi := in_index t
  unfold iblk
  rw [View.read_apply]
  show V m c main_v1 _ = V m c main_v1 _
  congr 1
  funext a
  apply Fin.ext
  match a with
  | ⟨0, _⟩ =>
    show win0_1.index t 0 * 512 + 1 * (j 0).val = 512 * t.val + (j 0).val
    rw [hi.2.2.1]; omega
  | ⟨1, _⟩ =>
    show win0_1.index t 1 * 1024 + 1 * (j 1).val = (j 1).val
    rw [hi.2.2.2.1]; omega

/-- Window 2's block at point `t`, at `j`, is its array at row `512·t + j₀`, lane `j₁`. -/
theorem iblk2_apply (c : Dev nD) (t : Fin cfg0.N) (j : S512x1024.Idx) :
    iblk m c 2 t j = V m c main_v2 (ix2 (⟨512 * t.val + (j 0).val, blk_row_lt t j⟩ : Fin 40960)
      (⟨(j 1).val, idx2_lt1 j⟩ : Fin 1024)) := by
  have hi := in_index t
  unfold iblk
  rw [View.read_apply]
  show V m c main_v2 _ = V m c main_v2 _
  congr 1
  funext a
  apply Fin.ext
  match a with
  | ⟨0, _⟩ =>
    show win0_2.index t 0 * 512 + 1 * (j 0).val = 512 * t.val + (j 0).val
    rw [hi.2.2.2.2.1]; omega
  | ⟨1, _⟩ =>
    show win0_2.index t 1 * 1024 + 1 * (j 1).val = (j 1).val
    rw [hi.2.2.2.2.2]; omega

/-- The sum over one block of a function of the three windows' entries; zero past the grid. -/
def elemSum (f : EReal → EReal → EReal → EReal) (c : Dev nD) (n : ℕ) : EReal :=
  if h : n < cfg0.N then
    ∑ j : S512x1024.Idx, f (iblk m c 0 ⟨n, h⟩ j) (iblk m c 1 ⟨n, h⟩ j) (iblk m c 2 ⟨n, h⟩ j)
  else 0

/-- Over the 80 grid points the block sums add up to the sum over all elements of the three arguments: the blocks
    tile the 40960 × 1024 arrays, and those are the arguments read through a change of shape. -/
theorem elemSum_total (f : EReal → EReal → EReal → EReal) (c : Dev nD) :
    ∑ t : Fin 80, elemSum m f c t.val
      = ∑ e : Cert.Ghm.SE.Idx, f (m ((c.tc : Thread nD τ).loc main_arg0) e) (m ((c.tc : Thread nD τ).loc main_arg1) e)
          (m ((c.tc : Thread nD τ).loc main_arg2) e) := by
  have hsc : S524288x80.ShapeCasts S40960x1024 := shapeCasts_S524288x80_S40960x1024
  have step : ∀ t : Fin 80, elemSum m f c t.val
      = ∑ j : S512x1024.Idx,
          (shapeCast S40960x1024 (fun e : S524288x80.Idx =>
              f (m ((c.tc : Thread nD τ).loc main_arg0) e) (m ((c.tc : Thread nD τ).loc main_arg1) e)
                (m ((c.tc : Thread nD τ).loc main_arg2) e)) hsc)
            (ix2 (⟨512 * t.val + (j 0).val, by have := idx2_lt0 j; have := t.isLt; omega⟩ : Fin 40960)
              (⟨(j 1).val, idx2_lt1 j⟩ : Fin 1024)) := by
    intro t
    have h : t.val < cfg0.N := lt_of_lt_of_eq t.isLt N_0.symm
    unfold elemSum
    rw [dif_pos h]
    refine Finset.sum_congr rfl (fun j _ => ?_)
    rw [iblk0_apply, iblk1_apply, iblk2_apply, V_v0, V_v1, V_v2]
    rfl
  refine (Finset.sum_congr rfl (fun t _ => step t)).trans ?_
  refine (Cert.Ghm.sum_blocks _).symm.trans ?_
  exact Cert.Ghm.sum_shapeCast _ hsc

end Cert.KernelIdeal.KVal

end
-- ==== Proof.KTail.lean ====
/-
  The host operations after the region, read as the binned form of the loss.

  The two result arrays hold, per core, one row of partial sums; the operations add the two cores' rows, take the
  first ten lanes as the per-bin counts and entropy masses and lane ten as the total, and form the weighted mean.
  Read at the one index of the scalar result, every operation is its pointwise meaning on the extended reals, and
  the two reductions over the ten bins are the finite sums of the binned form.
-/
import proofs.«172126_j1829656068729_2_alg».proof.Proof.KArr
import proofs.«172126_j1829656068729_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.StableHlo

namespace Cert.KernelIdeal.KVal

open Cert.KernelIdeal Cert.KernelIdeal.Gen

variable (m : (ℓ : Loc nD τ sig) → Buf (Elt Ideal) ℓ)

/-! ## The operations after the region, as one function of the two result arrays -/

/-- The two cores' rows of a result array, added lane by lane. -/
def rows (X : FVec Ideal S16x128 .f32) : FVec Ideal S128 .f32 :=
  addf (fun i => shapeCast S128 (extractStridedSlice S1x128 ![0, 0] X slices_S16x128_S1x128_0_0) shapeCasts_S1x128_S128 i)
    (fun i => shapeCast S128 (extractStridedSlice S1x128 ![8, 0] X slices_S16x128_S1x128_8_0) shapeCasts_S1x128_S128 i)

/-- The first ten lanes: one value per bin. -/
def binsV (X : FVec Ideal S16x128 .f32) : FVec Ideal S10 .f32 := extractStridedSlice S10 ![0] (rows X) slices_S128_S10_0

/-- Lane ten: the total. -/
def totV (X : FVec Ideal S16x128 .f32) : FVec Ideal S_ .f32 :=
  fun i => shapeCast S_ (extractStridedSlice S1 ![10] (rows X) slices_S128_S1_10) shapeCasts_S1_S_ i

/-- The total, at least one. -/
def maxT (X : FVec Ideal S16x128 .f32) : FVec Ideal S_ .f32 := maximumf (totV X) (constant S_ .f32 0x3F800000#32)

/-- Which bins are non-empty. -/
def posV (X : FVec Ideal S16x128 .f32) : IVec S10 1 :=
  cmpf .ogt (binsV X) (broadcastInDim S10 ![] bcast_S_S10 (constant S_ .f32 0x00000000#32))

/-- The bins' weights. -/
def wgtV (X : FVec Ideal S16x128 .f32) : FVec Ideal S10 .f32 :=
  select (posV X)
    (Host.divf (broadcastInDim S10 ![] bcast_S_S10 (maxT X))
      (maximumf (binsV X) (broadcastInDim S10 ![] bcast_S_S10 (constant S_ .f32 0x3F800000#32))))
    (broadcastInDim S10 ![] bcast_S_S10 (constant S_ .f32 0x00000000#32))

/-- The number of non-empty bins, at least one. -/
def nneV (X : FVec Ideal S16x128 .f32) : FVec Ideal S_ .f32 :=
  maximumf (Host.reduceAdd (uitofp .f32 (posV X)) (constant S_ .f32 0x00000000#32) reducesTo_S10_S_d0 h_S_)
    (constant S_ .f32 0x3F800000#32)

/-- The scalar the operations return, from the count array `C` and the entropy-mass array `B`. -/
def tailTerm (C B : FVec Ideal S16x128 .f32) : FVec Ideal S_ .f32 :=
  mulf (Host.divf
      (Host.reduceAdd (mulf (Host.divf (wgtV C) (broadcastInDim S10 ![] bcast_S_S10 (nneV C))) (binsV B))
        (constant S_ .f32 0x00000000#32) reducesTo_S10_S_d0 h_S_)
      (maxT C))
    (constant S_ .f32 0x3F800000#32)

/-- What the region leaves in the count array, as the operations after it find it. -/
theorem tail_C (c : Dev nD) :
    Pipeline.withArrays (cfgs 0).spec c (V0 m c) (fun w => (dats m 0 c).arrAt w (cfgs 0).N) (Proc.devRef .tc main_v3_0)
      = finalC m c :=
  (Pipeline.withArrays_arr spec0 winFacts0.arr_inj c _ _ 3).trans (arrC m c)

/-- What the region leaves in the entropy-mass array. -/
theorem tail_B (c : Dev nD) :
    Pipeline.withArrays (cfgs 0).spec c (V0 m c) (fun w => (dats m 0 c).arrAt w (cfgs 0).N) (Proc.devRef .tc main_v3_1)
      = finalB m c :=
  (Pipeline.withArrays_arr spec0 winFacts0.arr_inj c _ _ 4).trans (arrB m c)

set_option maxHeartbeats 4000000 in
/-- The operations after the region return `tailTerm` of the two result arrays. -/
theorem tail_term (c : Dev nD) :
    Pipeline.afterTail₀ cfgs (dats m) 0 (V0 m) [hostOps1, hostOps1_1, hostOps1_2] c main_v34
      = tailTerm (finalC m c) (finalB m c) := by
  unfold Pipeline.afterTail₀
  simp only [hostOps1, hostOps1_1, hostOps1_2, List.flatten_cons, List.flatten_nil, List.append_nil, List.cons_append,
    List.nil_append]
  after_results_simp
  rw [tail_C, tail_B]
  rfl

/-! ## The same, read at an index -/

/-- Lane `l` of the two cores' rows of `X`, added; zero past the lanes. -/
def col (X : S16x128.Idx → EReal) (l : ℕ) : EReal :=
  if h : l < 128 then X (ix2 (0 : Fin 16) ⟨l, h⟩) + X (ix2 (8 : Fin 16) ⟨l, h⟩) else 0

theorem rows_apply (X : FVec Ideal S16x128 .f32) (l : Fin 128) : rows X (ix1 l) = col X l.val := by
  unfold rows col
  rw [dif_pos l.isLt]
  show shapeCast S128 _ shapeCasts_S1x128_S128 (ix1 l) + shapeCast S128 _ shapeCasts_S1x128_S128 (ix1 l) = _
  rw [shapeCast_1a_a_apply, shapeCast_1a_a_apply, slice2_axis0_apply 0 X _ 0 l 0 rfl, slice2_axis0_apply 8 X _ 0 l 8 rfl]

theorem binsV_apply (X : FVec Ideal S16x128 .f32) (b : S10.Idx) : binsV X b = col X (b 0).val := by
  have hb : (b 0).val < 10 := (b 0).isLt
  unfold binsV
  rw [extractStridedSlice_apply ![0] (rows X) slices_S128_S10_0 b (ix1 (⟨(b 0).val, by omega⟩ : Fin 128))
    (fun a => by match a with | ⟨0, _⟩ => exact (Nat.zero_add _).symm)]
  exact rows_apply X _

theorem totV_apply (X : FVec Ideal S16x128 .f32) (i : S_.Idx) : totV X i = col X 10 := by
  unfold totV
  rw [shapeCast_apply _ shapeCasts_S1_S_ i (ix1 (0 : Fin 1)) (by
    rw [Shape.rowMajor_val_one]
    have h1 : (S_.rowMajor i).val < S_.numel := (S_.rowMajor i).isLt
    have h2 : S_.numel = 1 := rfl
    show 0 = _
    omega)]
  rw [extractStridedSlice_apply ![10] (rows X) slices_S128_S1_10 (ix1 (0 : Fin 1)) (ix1 (10 : Fin 128))
    (fun a => by match a with | ⟨0, _⟩ => rfl)]
  exact rows_apply X 10

/-- A scalar spread over the ten bins reads the scalar at every bin. -/
theorem bcast10_apply {α : Type} (x : S_.Idx → α) (b : S10.Idx) (i : S_.Idx) :
    broadcastInDim S10 ![] bcast_S_S10 x b = x i :=
  broadcastInDim_apply _ _ x b i (fun a => a.elim0)

theorem maxT_apply (X : FVec Ideal S16x128 .f32) (i : S_.Idx) : maxT X i = max (col X 10) Cert.Ghm.one := by
  show max (totV X i) (Ideal.ofBits .f32 0x3F800000#32) = _
  rw [totV_apply]

theorem posV_apply (X : FVec Ideal S16x128 .f32) (b : S10.Idx) :
    posV X b = Ideal.cmp .ogt (col X (b 0).val) Cert.Ghm.z := by
  show Ideal.cmp .ogt (binsV X b) (broadcastInDim S10 ![] bcast_S_S10 (constant (F := Ideal) S_ .f32 0x00000000#32) b) = _
  rw [binsV_apply, bcast10_apply _ b ix0]
  rfl

theorem wgtV_apply (X : FVec Ideal S16x128 .f32) (b : S10.Idx) :
    wgtV X b = Cert.Ghm.wgt (col X (b 0).val) (col X 10) := by
  show Scalar.select (posV X b)
    (Ideal.div (broadcastInDim S10 ![] bcast_S_S10 (maxT X) b)
      (max (binsV X b) (broadcastInDim S10 ![] bcast_S_S10 (constant (F := Ideal) S_ .f32 0x3F800000#32) b)))
    (broadcastInDim S10 ![] bcast_S_S10 (constant (F := Ideal) S_ .f32 0x00000000#32) b) = _
  rw [posV_apply, binsV_apply, bcast10_apply (maxT X) b ix0, maxT_apply, bcast10_apply _ b ix0, bcast10_apply _ b ix0]
  rfl

theorem nneV_apply (X : FVec Ideal S16x128 .f32) (i : S_.Idx) :
    nneV X i = Cert.Ghm.nne (fun b => col X (b 0).val) := by
  show max (Ideal.hostReduceAdd reducesTo_S10_S_d0 (uitofp (F := Ideal) .f32 (posV X)) (Ideal.ofBits .f32 0x00000000#32) i)
    (Ideal.ofBits .f32 0x3F800000#32) = _
  rw [Ideal.hostReduceAdd_total _ (fun b => b.elim0)]
  unfold Cert.Ghm.nne
  refine congrArg (fun s => max (Cert.Ghm.z + s) Cert.Ghm.one) (Finset.sum_congr rfl fun b _ => ?_)
  show (((posV X b).toNat : ℝ) : EReal) = _
  rw [posV_apply]

/-- The returned scalar is the binned form of the loss on the lanes of the two arrays. -/
theorem tailTerm_apply (C B : FVec Ideal S16x128 .f32) (i : S_.Idx) :
    tailTerm C B i
      = Cert.Ghm.lossBinned (fun b => col C (b 0).val) (col C 10) (fun b => col B (b 0).val) := by
  show Ideal.div (Ideal.hostReduceAdd reducesTo_S10_S_d0
      (mulf (Host.divf (wgtV C) (broadcastInDim S10 ![] bcast_S_S10 (nneV C))) (binsV B))
      (Ideal.ofBits .f32 0x00000000#32) i) (maxT C i) * Ideal.ofBits .f32 0x3F800000#32 = _
  rw [Ideal.hostReduceAdd_total _ (fun b => b.elim0), maxT_apply]
  unfold Cert.Ghm.lossBinned
  refine congrArg (fun s => Ideal.div (Cert.Ghm.z + s) (max (col C 10) Cert.Ghm.one) * Cert.Ghm.one)
    (Finset.sum_congr rfl fun b _ => ?_)
  show Ideal.div (wgtV C b) (broadcastInDim S10 ![] bcast_S_S10 (nneV C) b) * binsV B b = _
  rw [wgtV_apply, bcast10_apply (nneV C) b ix0, nneV_apply, binsV_apply]

/-! ## The result -/

/-- Lane `l` of the count array: the two cores' rows added. -/
def colC (c : Dev nD) (l : ℕ) : EReal :=
  if h : l < 128 then (finalC m c (ix2 (0 : Fin 16) ⟨l, h⟩) : EReal) + finalC m c (ix2 (8 : Fin 16) ⟨l, h⟩) else 0

/-- Lane `l` of the entropy-mass array: the two cores' rows added. -/
def colB (c : Dev nD) (l : ℕ) : EReal :=
  if h : l < 128 then (finalB m c (ix2 (0 : Fin 16) ⟨l, h⟩) : EReal) + finalB m c (ix2 (8 : Fin 16) ⟨l, h⟩) else 0

/-- The program's result is the binned form of the loss, with the first ten lanes of the count array as the counts,
    its lane ten as the total, and the first ten lanes of the entropy-mass array as the entropy masses. -/
theorem tail_value (c : Dev nD) :
    Pipeline.afterTail₀ cfgs (dats m) 0 (V0 m) [hostOps1, hostOps1_1, hostOps1_2] c main_v34
      = fun _ => Cert.Ghm.lossBinned (fun b => colC m c (b 0).val) (colC m c 10) (fun b => colB m c (b 0).val) := by
  rw [tail_term]
  funext i
  rw [tailTerm_apply]
  rfl

end Cert.KernelIdeal.KVal

end
-- ==== Proof.SpecFacts.lean ====
/-
  Elementary facts about the definitions of the loss: the bin word lies in [0, 9], the membership value is the
  indicator of the bin, the validity is 0 or 1, and the counts are natural numbers.
-/
import proofs.«172126_j1829656068729_2_alg».proof.Proof.Spec

noncomputable section

namespace Cert.Ghm

open Idealize.ShloMosaic Idealize.ShloMosaic.ValueIdx

/-- Clamping a signed 32-bit word below by 0 and above by 9 leaves a word whose signed value is in [0, 9]. -/
theorem clamp_range (w : BitVec 32) :
    0 ≤ (IntOp.minsi 9#32 (IntOp.maxsi 0#32 w)).toInt ∧ (IntOp.minsi 9#32 (IntOp.maxsi 0#32 w)).toInt ≤ 9 := by
  have h9 : (9#32 : BitVec 32).toInt = 9 := by decide
  have h0 : (0#32 : BitVec 32).toInt = 0 := by decide
  unfold IntOp.minsi IntOp.maxsi
  by_cases h1 : w.slt 0#32 = true
  · rw [if_pos h1]
    by_cases h2 : (9#32 : BitVec 32).slt 0#32 = true
    · rw [if_pos h2]; omega
    · rw [if_neg h2]; omega
  · rw [if_neg h1]
    have h1' : ¬ w.toInt < (0#32 : BitVec 32).toInt := fun h => h1 (BitVec.slt_iff_toInt_lt.mpr h)
    by_cases h2 : (9#32 : BitVec 32).slt w = true
    · rw [if_pos h2]; omega
    · rw [if_neg h2]
      have h2' : ¬ (9#32 : BitVec 32).toInt < w.toInt := fun h => h2 (BitVec.slt_iff_toInt_lt.mpr h)
      omega

/-- The bin word is between 0 and 9 as a signed integer. -/
theorem bin_range (p t : EReal) : 0 ≤ (bin p t).toInt ∧ (bin p t).toInt ≤ 9 := by
  unfold bin
  exact clamp_range _

/-- The bin index is the bin word read as a natural number. -/
theorem binIdx_val (p t : EReal) : ((binIdx p t) 0).val = (bin p t).toInt.toNat := by
  have h := bin_range p t
  show min (bin p t).toInt.toNat (10 - 1) = (bin p t).toInt.toNat
  omega

/-- A natural number below ten, as a 32-bit word, has itself as signed value. -/
theorem toInt_ofNat_small (k : ℕ) (hk : k < 10) : (BitVec.ofNat 32 k).toInt = (k : ℤ) := by
  interval_cases k <;> decide

/-- The membership value is the indicator of "the element's bin is b". -/
theorem msk_eq (b : SB.Idx) (p t : EReal) : msk b p t = if binIdx p t = b then 1 else 0 := by
  have hr := bin_range p t
  have hb : (b 0).val < 10 := (b 0).isLt
  have hk := toInt_ofNat_small (b 0).val hb
  have hiff : (bin p t = BitVec.ofNat 32 (b 0).val) ↔ binIdx p t = b := by
    constructor
    · intro h
      rw [eq_ix1 b, eq_ix1 (binIdx p t)]
      congr 1
      apply Fin.ext
      rw [binIdx_val, h, hk]
      simp
    · intro h
      apply BitVec.toInt_inj.mp
      rw [hk]
      have hv := binIdx_val p t
      rw [h] at hv
      omega
  unfold msk IntOp.cmpi
  by_cases h : bin p t = BitVec.ofNat 32 (b 0).val
  · rw [if_pos (hiff.mp h)]
    have : (bin p t == BitVec.ofNat 32 (b 0).val) = true := by simpa using h
    simp only [this]
    have e : ((BitVec.ofBool true).setWidth 32).toInt = 1 := by decide
    rw [e]; simp
  · rw [if_neg (fun h' => h (hiff.mpr h'))]
    have : (bin p t == BitVec.ofNat 32 (b 0).val) = false := by simpa using h
    simp only [this]
    have e : ((BitVec.ofBool false).setWidth 32).toInt = 0 := by decide
    rw [e]; simp

/-- The validity is 0 or 1. -/
theorem vld_cases (l : EReal) : vld l = 0 ∨ vld l = 1 := by
  have hz : z = 0 := Ideal.ofBits_zero_f32
  unfold vld Ideal.cmp
  rw [hz]
  by_cases h : (0 : EReal) < l
  · right; simp [h]
  · left; simp [h]

/-- The validity is a natural number. -/
theorem vld_nat (l : EReal) : ∃ k : ℕ, vld l = ((k : ℝ) : EReal) := by
  rcases vld_cases l with h | h
  · exact ⟨0, by rw [h]; simp⟩
  · exact ⟨1, by rw [h]; simp⟩

/-- A finite sum of natural numbers (as extended reals) is a natural number. -/
theorem sum_nat {ι : Type*} (s : Finset ι) (f : ι → EReal) (hf : ∀ i ∈ s, ∃ k : ℕ, f i = ((k : ℝ) : EReal)) :
    ∃ k : ℕ, ∑ i ∈ s, f i = ((k : ℝ) : EReal) := by
  refine Finset.sum_induction f (fun x => ∃ k : ℕ, x = ((k : ℝ) : EReal)) ?_ ?_ hf
  · rintro a b ⟨ka, rfl⟩ ⟨kb, rfl⟩
    exact ⟨ka + kb, by rw [Nat.cast_add, EReal.coe_add]⟩
  · exact ⟨0, by simp⟩

/-- The membership value is a natural number. -/
theorem msk_nat (b : SB.Idx) (p t : EReal) : ∃ k : ℕ, msk b p t = ((k : ℝ) : EReal) := by
  rw [msk_eq]
  by_cases h : binIdx p t = b
  · exact ⟨1, by rw [if_pos h]; simp⟩
  · exact ⟨0, by rw [if_neg h]; simp⟩

/-- The count of a bin is a natural number. -/
theorem cnt_nat (x0 x1 x2 : SE.Idx → EReal) (b : SB.Idx) : ∃ k : ℕ, cnt x0 x1 x2 b = ((k : ℝ) : EReal) := by
  unfold cnt
  refine sum_nat _ _ (fun e _ => ?_)
  obtain ⟨km, hm⟩ := msk_nat b (x0 e) (x1 e)
  obtain ⟨kv, hv⟩ := vld_nat (x2 e)
  exact ⟨km * kv, by rw [hm, hv, Nat.cast_mul, EReal.coe_mul]⟩

/-- The total of valid elements is a natural number. -/
theorem tot_nat (x2 : SE.Idx → EReal) : ∃ k : ℕ, tot x2 = ((k : ℝ) : EReal) := by
  unfold tot
  exact sum_nat _ _ (fun e _ => vld_nat (x2 e))

end Cert.Ghm

end
-- ==== Proof.Algebra.lean ====
/-
  The binned form and the elementwise form of the loss are the same extended real.

  Both are  ( z + S ) / max(tot, 1) · 1  with one divisor, so it is enough that the two inner sums S agree. Every
  coefficient  weight(b) / max(n, 1)  is a non-negative real, and multiplication by a non-negative real distributes over
  every finite sum of extended reals; the double sum over bins and elements is then exchanged, and the membership
  indicator keeps exactly the bin of each element.
-/
import proofs.«172126_j1829656068729_2_alg».proof.Proof.Spec
import proofs.«172126_j1829656068729_2_alg».proof.Proof.SpecFacts

noncomputable section

namespace Cert.Ghm

open Idealize.ShloMosaic Idealize.ShloMosaic.ValueIdx

/-- The word of `1.0` denotes the real 1. -/
theorem one_eq : one = 1 := by
  simp [Ideal.ofBits, Ideal.ieee, -EReal.coe_mul]; norm_num

/-- The word of `+0.0` denotes 0. -/
theorem z_eq : z = 0 := Ideal.ofBits_zero_f32

/-- Multiplication by a non-negative real distributes over a finite sum of extended reals. -/
theorem coe_mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- Summing per bin and then over bins with non-negative real coefficients is summing over the elements, each with
    the coefficient of its own bin. -/
theorem sum_bins {ι κ : Type*} [Fintype ι] [Fintype κ] [DecidableEq κ] (a : κ → ℝ) (ha : ∀ b, 0 ≤ a b)
    (β : ι → κ) (v g : ι → EReal) :
    ∑ b, (a b : EReal) * ∑ e, ((if β e = b then (1 : EReal) else 0) * v e) * g e
      = ∑ e, (a (β e) : EReal) * (v e * g e) := by
  calc ∑ b, (a b : EReal) * ∑ e, ((if β e = b then (1 : EReal) else 0) * v e) * g e
      = ∑ b, ∑ e, (a b : EReal) * (((if β e = b then (1 : EReal) else 0) * v e) * g e) :=
        Finset.sum_congr rfl (fun b _ => coe_mul_sum _ _ (ha b))
    _ = ∑ e, ∑ b, (a b : EReal) * (((if β e = b then (1 : EReal) else 0) * v e) * g e) := Finset.sum_comm
    _ = ∑ e, (a (β e) : EReal) * (v e * g e) := by
        refine Finset.sum_congr rfl (fun e _ => ?_)
        rw [Finset.sum_eq_single (β e)]
        · rw [if_pos rfl, one_mul]
        · intro b _ hb
          rw [if_neg (Ne.symm hb), zero_mul, zero_mul, mul_zero]
        · intro h; exact absurd (Finset.mem_univ _) h

/-- Dividing a product by a nonzero real and multiplying on: the middle factor may move to the right. -/
theorem div_shuffle (W v g : EReal) {n : ℝ} (hn : n ≠ 0) :
    Ideal.div (W * v) (n : EReal) * g = Ideal.div W (n : EReal) * (v * g) := by
  rw [Ideal.div_coe hn, Ideal.div_coe hn, mul_right_comm W v, mul_assoc]

/-- The coercion of the reals commutes with the maximum. -/
theorem coe_max' (a b : ℝ) : max (a : EReal) (b : EReal) = ((max a b : ℝ) : EReal) :=
  (EReal.coe_strictMono.monotone.map_max).symm

/-- The weight of a bin with a natural count, when the total is natural, is a non-negative real. -/
theorem wgt_real (kc kT : ℕ) : ∃ w : ℝ, 0 ≤ w ∧ wgt ((kc : ℝ) : EReal) ((kT : ℝ) : EReal) = (w : EReal) := by
  unfold wgt Scalar.select
  by_cases h : Ideal.cmp .ogt ((kc : ℝ) : EReal) z = 1
  · have hne : max (kc : ℝ) 1 ≠ 0 := ne_of_gt (lt_of_lt_of_le one_pos (le_max_right _ _))
    rw [if_pos h, one_eq, ← EReal.coe_one, coe_max', coe_max', Ideal.div_coe hne, ← EReal.coe_mul]
    exact ⟨_, by positivity, rfl⟩
  · rw [if_neg h, z_eq]
    exact ⟨0, le_refl _, by simp⟩

/-- The number of non-empty bins, at least one, is a real that is at least 1. -/
theorem nne_real (c : SB.Idx → EReal) : ∃ n : ℝ, 1 ≤ n ∧ nne c = (n : EReal) := by
  obtain ⟨k, hk⟩ := sum_nat Finset.univ (fun b : SB.Idx => (((Ideal.cmp .ogt (c b) z).toNat : ℝ) : EReal))
    (fun b _ => ⟨_, rfl⟩)
  refine ⟨max (k : ℝ) 1, le_max_right _ _, ?_⟩
  unfold nne
  rw [hk, z_eq, one_eq, zero_add, ← EReal.coe_one, coe_max']

/-- The coefficient of a bin, its weight over the number of non-empty bins, is a non-negative real. -/
theorem coef_real (x0 x1 x2 : SE.Idx → EReal) (b : SB.Idx) :
    ∃ a : ℝ, 0 ≤ a ∧ Ideal.div (wgt (cnt x0 x1 x2 b) (tot x2)) (nne (cnt x0 x1 x2)) = (a : EReal) := by
  obtain ⟨kc, hc⟩ := cnt_nat x0 x1 x2 b
  obtain ⟨kT, hT⟩ := tot_nat x2
  obtain ⟨w, hw0, hw⟩ := wgt_real kc kT
  obtain ⟨n, hn1, hn⟩ := nne_real (cnt x0 x1 x2)
  have hn0 : n ≠ 0 := ne_of_gt (lt_of_lt_of_le one_pos hn1)
  refine ⟨w * (1 / n), mul_nonneg hw0 (one_div_nonneg.mpr (le_trans zero_le_one hn1)), ?_⟩
  rw [hc, hT, hw, hn, Ideal.div_coe hn0, ← EReal.coe_mul]

/-- The elementwise form of the loss is its binned form. -/
theorem loss_forms (x0 x1 x2 : SE.Idx → EReal) :
    lossElementwise x0 x1 x2 (cnt x0 x1 x2) (tot x2) = lossBinned (cnt x0 x1 x2) (tot x2) (bsm x0 x1 x2) := by
  obtain ⟨n, hn1, hn⟩ := nne_real (cnt x0 x1 x2)
  have hn0 : n ≠ 0 := ne_of_gt (lt_of_lt_of_le one_pos hn1)
  choose a ha0 ha using coef_real x0 x1 x2
  have key : ∑ e : SE.Idx, Ideal.div (wgt (cnt x0 x1 x2 (binIdx (x0 e) (x1 e))) (tot x2) * vld (x2 e))
        (nne (cnt x0 x1 x2)) * bce (x0 e) (x1 e)
      = ∑ b : SB.Idx, Ideal.div (wgt (cnt x0 x1 x2 b) (tot x2)) (nne (cnt x0 x1 x2)) * bsm x0 x1 x2 b := by
    calc ∑ e : SE.Idx, Ideal.div (wgt (cnt x0 x1 x2 (binIdx (x0 e) (x1 e))) (tot x2) * vld (x2 e))
            (nne (cnt x0 x1 x2)) * bce (x0 e) (x1 e)
        = ∑ e : SE.Idx, (a (binIdx (x0 e) (x1 e)) : EReal) * (vld (x2 e) * bce (x0 e) (x1 e)) := by
          refine Finset.sum_congr rfl (fun e _ => ?_)
          rw [← ha, hn, div_shuffle _ _ _ hn0]
      _ = ∑ b : SB.Idx, (a b : EReal) * ∑ e : SE.Idx,
            ((if binIdx (x0 e) (x1 e) = b then (1 : EReal) else 0) * vld (x2 e)) * bce (x0 e) (x1 e) :=
          (sum_bins a ha0 _ _ _).symm
      _ = ∑ b : SB.Idx, Ideal.div (wgt (cnt x0 x1 x2 b) (tot x2)) (nne (cnt x0 x1 x2)) * bsm x0 x1 x2 b := by
          refine Finset.sum_congr rfl (fun b _ => ?_)
          rw [ha]
          unfold bsm
          refine congrArg _ (Finset.sum_congr rfl (fun e _ => ?_))
          rw [msk_eq]
  unfold lossElementwise lossBinned
  rw [key]

end Cert.Ghm

end
-- ==== Proof.KFin.lean ====
/-
  The two result arrays, lane by lane, are the specification's per-bin sums.

  On sublane 0, lane l, an accumulator block restarts at a core's first point with the zero word plus that point's term and
  otherwise adds the next point's term; so after a core's last point it holds the zero word plus the core's forty terms,
  and the two cores' rows add up to the sum of all eighty terms (the zero words denote 0). Each term is a sum over one
  [512,1024] block, the eighty blocks tile the [40960,1024] arrays, and those are the argument arrays read through a change
  of shape: the total is the sum over all 524288 · 80 elements. For the count array's lane b < 10 the summand is
  [bin = b] · validity, for its lane 10 the validity, for the entropy array's lane b the product with the cross-entropy.
-/
import proofs.«172126_j1829656068729_2_alg».proof.Proof.KLane2
import proofs.«172126_j1829656068729_2_alg».proof.Proof.KLaneB
import proofs.«172126_j1829656068729_2_alg».proof.Proof.KArr
import proofs.«172126_j1829656068729_2_alg».proof.Proof.KBlock
import proofs.«172126_j1829656068729_2_alg».proof.Proof.KTail
import proofs.«172126_j1829656068729_2_alg».proof.Proof.Sums
import proofs.«172126_j1829656068729_2_alg».proof.Proof.Algebra

noncomputable section

open Idealize.ShloMosaic Idealize.ShloMosaic.TcCoe Idealize.SL.Sem Idealize.ShloMosaic.ValueIdx

namespace Cert.KernelIdeal.KVal

open Cert.KernelIdeal Cert.KernelIdeal.Gen

variable (m : (ℓ : Loc nD τ sig) → Buf (Elt Ideal) ℓ)

/-- At a core's first point both accumulators start from the zero block. -/
theorem accs_first (c : Dev nD) (n : ℕ) (h : n < cfg0.N) (h0 : n % 40 = 0) :
    accs m c n h = (stepC (iblk m c 0 ⟨n, h⟩) (iblk m c 1 ⟨n, h⟩) (iblk m c 2 ⟨n, h⟩) (k0_pay4 (F := Ideal)),
      stepB (iblk m c 0 ⟨n, h⟩) (iblk m c 1 ⟨n, h⟩) (iblk m c 2 ⟨n, h⟩) (k0_pay5 (F := Ideal))) := by
  cases n with
  | zero => rfl
  | succ n => show (if (n + 1) % 40 = 0 then _ else _) = _; rw [if_pos h0]

/-- At any other point they continue from the point before. -/
theorem accs_next (c : Dev nD) (n : ℕ) (h : n + 1 < cfg0.N) (h0 : (n + 1) % 40 ≠ 0) :
    accs m c (n + 1) h = (stepC (iblk m c 0 ⟨n + 1, h⟩) (iblk m c 1 ⟨n + 1, h⟩) (iblk m c 2 ⟨n + 1, h⟩) (accs m c n (Nat.lt_of_succ_lt h)).1,
      stepB (iblk m c 0 ⟨n + 1, h⟩) (iblk m c 1 ⟨n + 1, h⟩) (iblk m c 2 ⟨n + 1, h⟩) (accs m c n (Nat.lt_of_succ_lt h)).2) := by
  show (if (n + 1) % 40 = 0 then _ else _) = _
  rw [if_neg h0]

/-- From the two rules to the total: a quantity that restarts with `z + term` at a core's first point and adds `term` at
    the others has, over the two cores' last points, the sum of the terms' summand over all elements. -/
theorem two_cores_total (c : Dev nD) (f : EReal → EReal → EReal → EReal) (a : ℕ → EReal)
    (ha0 : ∀ n, n < 80 → n % 40 = 0 → a n = Cert.Ghm.z + (Cert.Ghm.z + elemSum m f c n))
    (haS : ∀ n, n + 1 < 80 → (n + 1) % 40 ≠ 0 → a (n + 1) = a n + (Cert.Ghm.z + elemSum m f c (n + 1))) :
    a 39 + a 79 = ∑ e : Cert.Ghm.SE.Idx, f (m ((c.tc : Thread nD τ).loc main_arg0) e) (m ((c.tc : Thread nD τ).loc main_arg1) e)
      (m ((c.tc : Thread nD τ).loc main_arg2) e) := by
  have h39 := Cert.Ghm.acc_closed_lt 80 Cert.Ghm.z (fun n => Cert.Ghm.z + elemSum m f c n) a ha0 haS 39 (by norm_num)
  have h79 := Cert.Ghm.acc_closed_lt 80 Cert.Ghm.z (fun n => Cert.Ghm.z + elemSum m f c n) a ha0 haS 79 (by norm_num)
  have e39 : (39 % 40 + 1 = 40) ∧ (39 - 39 % 40 = 0) := by constructor <;> norm_num
  have e79 : (79 % 40 + 1 = 40) ∧ (79 - 79 % 40 = 40) := by constructor <;> norm_num
  rw [e39.1, e39.2] at h39
  rw [e79.1, e79.2] at h79
  rw [h39, h79]
  simp only [Nat.zero_add]
  rw [Cert.Ghm.sum_two_cores (fun n => Cert.Ghm.z + elemSum m f c n)]
  simp only [Cert.Ghm.z_eq, zero_add]
  exact elemSum_total m f c

variable (c : Dev nD)

/-- Sublane 0, lane `l` of the two accumulators after point `n` (zero past the grid). -/
def rowC (l : Fin 128) (n : ℕ) : EReal := if h : n < cfg0.N then (accs m c n h).1 (ix2 (0 : Fin 8) l) else 0
def rowB (l : Fin 128) (n : ℕ) : EReal := if h : n < cfg0.N then (accs m c n h).2 (ix2 (0 : Fin 8) l) else 0

/-- Lane `l` of each result array is the accumulator's row after the two cores' last points. -/
theorem colC_rows (l : ℕ) (hl : l < 128) : colC m c l = rowC m c ⟨l, hl⟩ 39 + rowC m c ⟨l, hl⟩ 79 := by
  have h39 : 39 < cfg0.N := by rw [show cfg0.N = 80 from N_0]; norm_num
  have h79 : 79 < cfg0.N := by rw [show cfg0.N = 80 from N_0]; norm_num
  unfold colC rowC
  rw [dif_pos hl, dif_pos h39, dif_pos h79,
    finalC_at m c ⟨39, h39⟩ (by norm_num) (ix2 (0 : Fin 16) ⟨l, hl⟩) (0 : Fin 8) ⟨l, hl⟩ (by show (0 : ℕ) = 8 * (39 / 40) + 0; norm_num) rfl,
    finalC_at m c ⟨79, h79⟩ (by norm_num) (ix2 (8 : Fin 16) ⟨l, hl⟩) (0 : Fin 8) ⟨l, hl⟩ (by show (8 : ℕ) = 8 * (79 / 40) + 0; norm_num) rfl]

theorem colB_rows (l : ℕ) (hl : l < 128) : colB m c l = rowB m c ⟨l, hl⟩ 39 + rowB m c ⟨l, hl⟩ 79 := by
  have h39 : 39 < cfg0.N := by rw [show cfg0.N = 80 from N_0]; norm_num
  have h79 : 79 < cfg0.N := by rw [show cfg0.N = 80 from N_0]; norm_num
  unfold colB rowB
  rw [dif_pos hl, dif_pos h39, dif_pos h79,
    finalB_at m c ⟨39, h39⟩ (by norm_num) (ix2 (0 : Fin 16) ⟨l, hl⟩) (0 : Fin 8) ⟨l, hl⟩ (by show (0 : ℕ) = 8 * (39 / 40) + 0; norm_num) rfl,
    finalB_at m c ⟨79, h79⟩ (by norm_num) (ix2 (8 : Fin 16) ⟨l, hl⟩) (0 : Fin 8) ⟨l, hl⟩ (by show (8 : ℕ) = 8 * (79 / 40) + 0; norm_num) rfl]

section Lane
variable (k : ℕ) (hk : k < 10) (l : Fin 128)

theorem cntRule_first (hl : l.val = k) (n : ℕ) (hn : n < 80) (h0 : n % 40 = 0) :
    rowC m c l n = Cert.Ghm.z + (Cert.Ghm.z + elemSum m (fun p t w => Cert.Ghm.msk (ix1 (⟨k, hk⟩ : Fin 10)) p t * Cert.Ghm.vld w) c n) := by
  have h : n < cfg0.N := by rw [show cfg0.N = 80 from N_0]; exact hn
  unfold rowC elemSum
  rw [dif_pos h, dif_pos h, accs_first m c n h h0]
  show stepC _ _ _ _ (ix2 (0 : Fin 8) l) = _
  rw [stepC_apply, fullRow_bin _ _ _ k hk l hl]
  rfl

theorem cntRule_next (hl : l.val = k) (n : ℕ) (hn : n + 1 < 80) (h0 : (n + 1) % 40 ≠ 0) :
    rowC m c l (n + 1) = rowC m c l n + (Cert.Ghm.z + elemSum m (fun p t w => Cert.Ghm.msk (ix1 (⟨k, hk⟩ : Fin 10)) p t * Cert.Ghm.vld w) c (n + 1)) := by
  have h : n + 1 < cfg0.N := by rw [show cfg0.N = 80 from N_0]; exact hn
  have h' : n < cfg0.N := Nat.lt_of_succ_lt h
  unfold rowC elemSum
  rw [dif_pos h, dif_pos h', dif_pos h, accs_next m c n h h0]
  show stepC _ _ _ _ (ix2 (0 : Fin 8) l) = _
  rw [stepC_apply, fullRow_bin _ _ _ k hk l hl]

theorem bsmRule_first (hl : l.val = k) (n : ℕ) (hn : n < 80) (h0 : n % 40 = 0) :
    rowB m c l n = Cert.Ghm.z + (Cert.Ghm.z + elemSum m (fun p t w => (Cert.Ghm.msk (ix1 (⟨k, hk⟩ : Fin 10)) p t * Cert.Ghm.vld w) * Cert.Ghm.bce p t) c n) := by
  have h : n < cfg0.N := by rw [show cfg0.N = 80 from N_0]; exact hn
  unfold rowB elemSum
  rw [dif_pos h, dif_pos h, accs_first m c n h h0]
  show stepB _ _ _ _ (ix2 (0 : Fin 8) l) = _
  rw [stepB_apply, bceRow_bin _ _ _ k hk l hl]
  rfl

theorem bsmRule_next (hl : l.val = k) (n : ℕ) (hn : n + 1 < 80) (h0 : (n + 1) % 40 ≠ 0) :
    rowB m c l (n + 1) = rowB m c l n + (Cert.Ghm.z + elemSum m (fun p t w => (Cert.Ghm.msk (ix1 (⟨k, hk⟩ : Fin 10)) p t * Cert.Ghm.vld w) * Cert.Ghm.bce p t) c (n + 1)) := by
  have h : n + 1 < cfg0.N := by rw [show cfg0.N = 80 from N_0]; exact hn
  have h' : n < cfg0.N := Nat.lt_of_succ_lt h
  unfold rowB elemSum
  rw [dif_pos h, dif_pos h', dif_pos h, accs_next m c n h h0]
  show stepB _ _ _ _ (ix2 (0 : Fin 8) l) = _
  rw [stepB_apply, bceRow_bin _ _ _ k hk l hl]

end Lane

section Lane10
variable (l : Fin 128)

theorem totRule_first (hl : l.val = 10) (n : ℕ) (hn : n < 80) (h0 : n % 40 = 0) :
    rowC m c l n = Cert.Ghm.z + (Cert.Ghm.z + elemSum m (fun _ _ w => Cert.Ghm.vld w) c n) := by
  have h : n < cfg0.N := by rw [show cfg0.N = 80 from N_0]; exact hn
  unfold rowC elemSum
  rw [dif_pos h, dif_pos h, accs_first m c n h h0]
  show stepC _ _ _ _ (ix2 (0 : Fin 8) l) = _
  rw [stepC_apply, fullRow_tot _ _ _ l hl]
  rfl

theorem totRule_next (hl : l.val = 10) (n : ℕ) (hn : n + 1 < 80) (h0 : (n + 1) % 40 ≠ 0) :
    rowC m c l (n + 1) = rowC m c l n + (Cert.Ghm.z + elemSum m (fun _ _ w => Cert.Ghm.vld w) c (n + 1)) := by
  have h : n + 1 < cfg0.N := by rw [show cfg0.N = 80 from N_0]; exact hn
  have h' : n < cfg0.N := Nat.lt_of_succ_lt h
  unfold rowC elemSum
  rw [dif_pos h, dif_pos h', dif_pos h, accs_next m c n h h0]
  show stepC _ _ _ _ (ix2 (0 : Fin 8) l) = _
  rw [stepC_apply, fullRow_tot _ _ _ l hl]

end Lane10

/-- The argument arrays, as the specification's element arrays. -/
abbrev pred : Cert.Ghm.SE.Idx → EReal := m ((c.tc : Thread nD τ).loc main_arg0)
abbrev targ : Cert.Ghm.SE.Idx → EReal := m ((c.tc : Thread nD τ).loc main_arg1)
abbrev labl : Cert.Ghm.SE.Idx → EReal := m ((c.tc : Thread nD τ).loc main_arg2)

/-- Lane b < 10 of the count array is bin b's count over all elements. -/
theorem colC_bin (k : Fin 10) : colC m c k.val = Cert.Ghm.cnt (pred m c) (targ m c) (labl m c) (ix1 k) := by
  rw [colC_rows m c k.val (by omega),
    two_cores_total m c _ _ (cntRule_first m c k.val k.isLt ⟨k.val, by omega⟩ rfl) (cntRule_next m c k.val k.isLt ⟨k.val, by omega⟩ rfl)]
  rfl

/-- Lane 10 of the count array is the number of valid elements. -/
theorem colC_tot : colC m c 10 = Cert.Ghm.tot (labl m c) := by
  rw [colC_rows m c 10 (by norm_num),
    two_cores_total m c _ _ (totRule_first m c ⟨10, by norm_num⟩ rfl) (totRule_next m c ⟨10, by norm_num⟩ rfl)]
  rfl

/-- Lane b < 10 of the entropy array is bin b's entropy mass over all elements. -/
theorem colB_bin (k : Fin 10) : colB m c k.val = Cert.Ghm.bsm (pred m c) (targ m c) (labl m c) (ix1 k) := by
  rw [colB_rows m c k.val (by omega),
    two_cores_total m c _ _ (bsmRule_first m c k.val k.isLt ⟨k.val, by omega⟩ rfl) (bsmRule_next m c k.val k.isLt ⟨k.val, by omega⟩ rfl)]
  rfl

/-- THE KERNEL'S RESULT: the binned form of the loss of the three argument arrays. -/
theorem kernel_value :
    Pipeline.afterTail₀ cfgs (dats m) 0 (V0 m) [hostOps1, hostOps1_1, hostOps1_2] c main_v34
      = fun _ => Cert.Ghm.lossBinned (Cert.Ghm.cnt (pred m c) (targ m c) (labl m c)) (Cert.Ghm.tot (labl m c))
          (Cert.Ghm.bsm (pred m c) (targ m c) (labl m c)) := by
  rw [tail_value, colC_tot,
    show (fun b : Cert.Ghm.SB.Idx => colC m c (b 0).val) = Cert.Ghm.cnt (pred m c) (targ m c) (labl m c) from funext fun b => by
      obtain ⟨k, rfl⟩ : ∃ k : Fin 10, b = ix1 k := ⟨b 0, eq_ix1 b⟩
      exact colC_bin m c k,
    show (fun b : Cert.Ghm.SB.Idx => colB m c (b 0).val) = Cert.Ghm.bsm (pred m c) (targ m c) (labl m c) from funext fun b => by
      obtain ⟨k, rfl⟩ : ∃ k : Fin 10, b = ix1 k := ⟨b 0, eq_ix1 b⟩
      exact colB_bin m c k]

end Cert.KernelIdeal.KVal

end
-- ==== Proof.RefValue.lean ====
/-
  THE REFERENCE'S VALUE. The reference program computes the gradient-harmonised cross-entropy loss in about ninety array
  operations; read one operation at a time at an index (module RefRead), each stage is a formula of module Spec:

    • the validity  v(e) = [l(e) > 0]  (stage 10), the clamped bin word  bin(e)  (stage 17: the host's 1/(1 + exp(−p)) is the
      logistic function once the word 1.0 is read as one), the stable cross-entropy  bce(e)  (stage 56: −|p| = 0 − |p|), and
      the total  max(tot, 1)  (stage 12: a float sum over every element, started at zero);
    • the COUNTS (stage 27): a scatter-add of the validities into ten zeros at the bin words. Update j lands on bin b exactly
      when its index word, read signed, is b; a bin word lies in [0, 9], so the wrap-around of negative indices is never
      taken and the landing condition is "bin(e) = b". The sum over the flat update index is the sum over the elements
      through the row-major bijection j ↦ (j / 80, j % 80). Hence stage 27 at b is  cnt(b) = Σ_e [bin(e) = b]·v(e);
    • the weight of a bin (stage 36), the number of non-empty bins (stage 45), and the GATHER (stage 43): element e reads the
      weight at its start index, read signed and clamped into [0, 9] — which is the bin index of e;
    • the elementwise product, its sum over every element and the final division (stages 57 to 60): the loss in
      elementwise form.
-/
import proofs.«172126_j1829656068729_2_alg».proof.Proof.Spec
import proofs.«172126_j1829656068729_2_alg».proof.Proof.RefRead
import proofs.«172126_j1829656068729_2_alg».proof.Proof.SpecFacts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Ghm

/-- The word `1.0` denotes one. -/
theorem one_eq : Ideal.ofBits .f32 0x3F800000#32 = 1 := by
  simp [Ideal.ofBits, Ideal.ieee, -EReal.coe_mul]; norm_num

/-- The validity stage: the comparison of the label weight with zero, as a float. -/
theorem v10_eq (x2 : SE.Idx → EReal) (i : SE.Idx) : val_main_v10 (F := Ideal) x2 i = vld (x2 i) := by
  rw [val_main_v10_apply, val_main_v9_apply, val_main_v8_apply, val_main_cst_1_apply]
  rfl

/-- The clamped bin word: the host's `1 / (1 + exp (−p))` is the logistic function once the word `1.0` is read as one. -/
theorem v17_eq (x0 x1 : SE.Idx → EReal) (i : SE.Idx) : val_main_v17 (F := Ideal) x0 x1 i = bin (x0 i) (x1 i) := by
  rw [val_main_v17_apply, val_main_call0_v4_apply, val_main_call0_v3_apply, val_main_c_5_apply,
    val_main_call0_v2_apply, val_main_call0_v1_apply, val_main_call0_v0_apply, val_main_c_apply,
    val_main_v16_apply, val_main_v15_apply, val_main_v14_apply, val_main_v13_apply, val_main_cst_4_apply,
    val_main_v7_apply, val_main_v6_apply, val_main_v5_apply, val_main_v4_apply, val_main_cst_0_apply,
    val_main_v3_apply, val_main_v2_apply, val_main_cst_apply, val_main_v1_apply, val_main_v0_apply]
  simp only [Ideal.ofBits_def, one_eq]
  rfl

/-- The stable cross-entropy stage: `−|p|` is `0 − |p|`. -/
theorem v56_eq (x0 x1 : SE.Idx → EReal) (i : SE.Idx) : val_main_v56 (F := Ideal) x0 x1 i = bce (x0 i) (x1 i) := by
  rw [val_main_v56_apply, val_main_v51_apply, val_main_v49_apply, val_main_v48_apply, val_main_cst_16_apply,
    val_main_v50_apply, val_main_v55_apply, val_main_v54_apply, val_main_v53_apply, val_main_v52_apply]
  unfold bce
  have hz : z - max (x0 i) (-(x0 i)) = -(max (x0 i) (-(x0 i))) := by
    show Ideal.ofBits .f32 0x00000000#32 - _ = _
    rw [Ideal.ofBits_zero_f32, zero_sub]
  rw [hz]
  rfl

/-- The total of valid elements, at least one. -/
theorem v12_eq (x2 : SE.Idx → EReal) (i : S_.Idx) : val_main_v12 (F := Ideal) x2 i = max (tot x2) one := by
  rw [val_main_v12_apply, val_main_v11_apply, val_main_cst_2_apply, val_main_cst_3_apply]
  simp only [Ideal.ofBits_def, Ideal.ofBits_zero_f32, zero_add, Ideal.maximumf_def]
  unfold tot
  congr 1

/-! ### The scatter's result index -/

section Scatter

/-- The scatter-indices index an update index reads its start from: its own coordinate, and `0` on the index vector's axis. -/
theorem scatter_siIdx (j : S41943040.Idx) (c : Fin scatter_S10_S41943040x1_S41943040_n_0_0_1.scatterDimsToOperandDims.length) :
    scatter_S10_S41943040x1_S41943040_n_0_0_1.siIdx j c = (ix2 (j 0) 0 : S41943040x1.Idx) := by
  funext b; refine Fin.ext ?_
  have hc : c.val = 0 := by have := c.isLt; change c.val < 1 at this; omega
  match b with
  | ⟨0, _⟩ => rfl
  | ⟨1, _⟩ => exact hc

/-- The window coordinate is `0`: the operand's one axis is an inserted window axis. -/
theorem scatter_window (j : S41943040.Idx) (a : Fin S10.rank) :
    scatter_S10_S41943040x1_S41943040_n_0_0_1.window j a = 0 := by
  unfold ScatterDims.window
  rw [dif_neg]
  obtain rfl : a = 0 := Subsingleton.elim _ _
  decide

/-- The start of the window is the scatter index of the update, read signed. -/
theorem scatter_start (j : S41943040.Idx) (idx : IVec S41943040x1 32) (a : Fin S10.rank) :
    scatter_S10_S41943040x1_S41943040_n_0_0_1.start j idx a = (idx (ix2 (j 0) 0)).toInt := by
  obtain rfl : a = 0 := Subsingleton.elim _ _
  unfold ScatterDims.start
  rw [dif_pos (show (0 : Fin S10.rank) ∈ scatter_S10_S41943040x1_S41943040_n_0_0_1.scatterDimsToOperandDims from List.mem_singleton.mpr rfl)]
  rw [scatter_siIdx]

/-- AN UPDATE LANDS ON BIN `i` exactly when its scatter index, read signed, is `i`. -/
theorem scatter_resultIdx_iff (j : S41943040.Idx) (idx : IVec S41943040x1 32) (i : S10.Idx) :
    scatter_S10_S41943040x1_S41943040_n_0_0_1.resultIdx? j idx = some i ↔ (idx (ix2 (j 0) 0)).toInt = ((i 0).val : Int) := by
  have hi : (i 0).val < 10 := (i 0).isLt
  unfold ScatterDims.resultIdx?
  split
  · rename_i h
    have h0 := h 0
    rw [scatter_start, scatter_window] at h0
    constructor
    · intro he
      have he' := congrArg (fun f => (f 0).val) (Option.some.inj he)
      simp only [scatter_start, scatter_window] at he'
      omega
    · intro he
      congr 1
      funext a
      obtain rfl : a = 0 := Subsingleton.elim _ _
      refine Fin.ext ?_
      simp only [scatter_start, scatter_window]
      omega
  · rename_i h
    constructor
    · intro he; exact absurd he (by simp)
    · intro he
      exfalso; apply h
      intro a
      obtain rfl : a = 0 := Subsingleton.elim _ _
      rw [scatter_start, scatter_window, he]
      constructor
      · omega
      · show ((i 0).val : Int) + ((0 : Nat) : Int) < ((10 : Nat) : Int)
        omega

end Scatter

/-! ### The per-bin counts -/

/-- A non-negative word is not below zero. -/
theorem cmpi_slt_zero_of_nonneg (w : BitVec 32) (h : 0 ≤ w.toInt) : IntOp.cmpi .slt w 0#32 = 0#1 := by
  unfold IntOp.cmpi
  have : w.slt 0#32 = false := by
    rw [BitVec.slt]; simp only [BitVec.toInt_zero, decide_eq_false_iff_not, not_lt]; exact h
  simp only [this]; rfl

/-- Landing on bin `b` is membership in bin `b`. -/
theorem bin_toInt_eq_iff (p t : EReal) (b : SB.Idx) : (bin p t).toInt = ((b 0).val : Int) ↔ binIdx p t = b := by
  have hr := bin_range p t
  have hv := binIdx_val p t
  constructor
  · intro h
    rw [eq_ix1 (binIdx p t), eq_ix1 b]
    congr 1
    refine Fin.ext ?_
    rw [hv]; omega
  · intro h
    rw [← h, hv]; omega

/-- The flat element index and the (row, class) index are in bijection, row-major. -/
def flatEquiv : S41943040.Idx ≃ S524288x80.Idx where
  toFun := idx_main_v19
  invFun e := ix1 ⟨(e 0).val * 80 + (e 1).val, by have h0 := idx2_lt0 e; have h1 := idx2_lt1 e; omega⟩
  left_inv j := by
    have h0 : (j 0).val < 41943040 := (j 0).isLt
    funext a
    obtain rfl : a = 0 := Subsingleton.elim _ _
    refine Fin.ext ?_
    show ((j 0).val / 80) * 80 + (j 0).val % 80 = (j 0).val
    omega
  right_inv e := by
    have h0 := idx2_lt0 e; have h1 := idx2_lt1 e
    funext a
    refine Fin.ext ?_
    match a with
    | ⟨0, _⟩ => show ((e 0).val * 80 + (e 1).val) / 80 = (e 0).val; omega
    | ⟨1, _⟩ => show ((e 0).val * 80 + (e 1).val) % 80 = (e 1).val; omega

/-- The scatter's index word at an update: the bin word of the element the update comes from (a bin word is never negative, so
    the wrap-around of negative indices is not taken). -/
theorem v26_eq (x0 x1 : SE.Idx → EReal) (j : S41943040.Idx) :
    val_main_v26 (F := Ideal) x0 x1 (ix2 (j 0) 0) = bin (x0 (idx_main_v19 j)) (x1 (idx_main_v19 j)) := by
  have hj : idx_main_v26 (ix2 (j 0) 0 : S41943040x1.Idx) = j := by
    funext a; match a with | ⟨0, _⟩ => rfl
  rw [val_main_v26_apply, hj, val_main_v25_apply, val_main_v22_apply, val_main_v21_apply, val_main_c_7_apply,
    val_main_v19_apply, v17_eq, cmpi_slt_zero_of_nonneg _ (bin_range _ _).1, select_zero]

/-- The scatter-add read at a bin: the operand's element plus the updates whose scatter index is that bin. -/
theorem scatterAdd_apply (x : S10.Idx → EReal) (idx : IVec S41943040x1 32) (upd : S41943040.Idx → EReal) (b : S10.Idx) :
    Ideal.hostScatterAdd scatter_S10_S41943040x1_S41943040_n_0_0_1 x idx upd b
      = x b + ∑ j : S41943040.Idx, if (idx (ix2 (j 0) 0)).toInt = ((b 0).val : Int) then upd j else 0 := by
  unfold Ideal.hostScatterAdd
  refine congrArg (fun y => x b + y) ?_
  refine (Finset.sum_filter _ _).trans ?_
  refine Finset.sum_congr rfl (fun j _ => ?_)
  exact if_congr (scatter_resultIdx_iff j idx b) rfl rfl

/-- The count stage is the ideal scatter-add of the validities at the scatter's index words. -/
theorem v27_fun (x0 x1 x2 : SE.Idx → EReal) : val_main_v27 (F := Ideal) x0 x1 x2 = Ideal.hostScatterAdd scatter_S10_S41943040x1_S41943040_n_0_0_1
      (val_main_v18 (F := Ideal)) (val_main_v26 (F := Ideal) x0 x1) (val_main_v20 (F := Ideal) x2) := rfl

/-- THE COUNTS: the scatter-add of the validities at the bin words is the count of valid elements per bin. -/
theorem v27_eq (x0 x1 x2 : SE.Idx → EReal) (b : SB.Idx) : val_main_v27 (F := Ideal) x0 x1 x2 b = cnt x0 x1 x2 b := by
  refine (congrFun (v27_fun x0 x1 x2) b).trans ?_
  refine (scatterAdd_apply _ _ _ b).trans ?_
  have hx : val_main_v18 (F := Ideal) b = 0 := by
    rw [val_main_v18_apply, val_main_cst_6_apply, Ideal.ofBits_def, Ideal.ofBits_zero_f32]
  rw [hx, zero_add]
  unfold cnt
  rw [← Equiv.sum_comp flatEquiv]
  refine Finset.sum_congr rfl (fun j _ => ?_)
  rw [msk_eq, ite_mul, one_mul, zero_mul, val_main_v20_apply, v10_eq, v26_eq]
  exact if_congr (bin_toInt_eq_iff _ _ b) rfl rfl

/-! ### The weights per bin, the number of non-empty bins, and the gather -/

/-- "Bin `b` is non-empty", as the program compares it. -/
theorem v29_eq (x0 x1 x2 : SE.Idx → EReal) (b : SB.Idx) :
    val_main_v29 (F := Ideal) x0 x1 x2 b = Ideal.cmp .ogt (cnt x0 x1 x2 b) z := by
  rw [val_main_v29_apply, v27_eq, val_main_v28_apply, val_main_cst_9_apply]
  rfl

/-- The weight of bin `b`. -/
theorem v36_eq (x0 x1 x2 : SE.Idx → EReal) (b : SB.Idx) :
    val_main_v36 (F := Ideal) x0 x1 x2 b = wgt (cnt x0 x1 x2 b) (tot x2) := by
  rw [val_main_v36_apply, v29_eq, val_main_v35_apply, val_main_v34_apply, v12_eq, val_main_v33_apply, v27_eq,
    val_main_v32_apply, val_main_cst_11_apply, val_main_call1_v1_apply, val_main_call1_v0_apply, val_main_cst_12_apply]
  rfl

/-- The number of non-empty bins, at least one. -/
theorem v45_eq (x0 x1 x2 : SE.Idx → EReal) (i : S_.Idx) :
    val_main_v45 (F := Ideal) x0 x1 x2 i = nne (cnt x0 x1 x2) := by
  rw [val_main_v45_apply, val_main_v31_apply, val_main_cst_10_apply, val_main_cst_15_apply]
  unfold nne
  have hs : (∑ j : S10.Idx, val_main_v30 (F := Ideal) x0 x1 x2 j)
      = ∑ b : SB.Idx, (((Ideal.cmp .ogt (cnt x0 x1 x2 b) z).toNat : ℝ) : EReal) := by
    refine Finset.sum_congr rfl (fun j _ => ?_)
    rw [val_main_v30_apply, v29_eq]
    rfl
  rw [hs]
  rfl

/-- The gather's index word at an element is the element's bin word (never negative, so not wrapped around). -/
theorem v42_eq (x0 x1 : SE.Idx → EReal) (i : SE.Idx) :
    val_main_v42 (F := Ideal) x0 x1 (takeIdx i) = bin (x0 i) (x1 i) := by
  have hi : idx_main_v42 (takeIdx i : S524288x80x1.Idx) = i := by
    funext a; match a with | ⟨0, _⟩ => rfl | ⟨1, _⟩ => rfl
  rw [val_main_v42_apply, hi, val_main_v41_apply, val_main_v38_apply, val_main_v37_apply, val_main_c_13_apply,
    v17_eq, cmpi_slt_zero_of_nonneg _ (bin_range _ _).1, select_zero]

/-- The gather stage is the gather of a flat array at a rank-2 array of start indices. -/
theorem v43_fun (x0 x1 x2 : SE.Idx → EReal) : val_main_v43 (F := Ideal) x0 x1 x2
    = Host.gather (takeDims 10 524288 80 Facts₀.gather_S10_S524288x80x1_S524288x80_n_0_n_n_0_2_1_wf)
        (val_main_v36 (F := Ideal) x0 x1 x2) (val_main_v42 (F := Ideal) x0 x1) := rfl

/-- THE GATHER: each element reads the weight of its own bin. -/
theorem v43_eq (x0 x1 x2 : SE.Idx → EReal) (i : SE.Idx) :
    val_main_v43 (F := Ideal) x0 x1 x2 i = wgt (cnt x0 x1 x2 (binIdx (x0 i) (x1 i))) (tot x2) := by
  refine (congrFun (v43_fun x0 x1 x2) i).trans ?_
  refine (gather_take_apply (by norm_num) _ _ _ i).trans ?_
  refine Eq.trans ?_ (v36_eq x0 x1 x2 (binIdx (x0 i) (x1 i)))
  refine congrArg (val_main_v36 (F := Ideal) x0 x1 x2) ?_
  funext a
  obtain rfl : a = 0 := Subsingleton.elim _ _
  refine Fin.ext ?_
  show min (val_main_v42 (F := Ideal) x0 x1 (takeIdx i)).toInt.toNat (10 - 1) = min (bin (x0 i) (x1 i)).toInt.toNat (10 - 1)
  rw [v42_eq]

/-- One term of the loss's sum. -/
theorem v57_eq (x0 x1 x2 : SE.Idx → EReal) (i : SE.Idx) :
    val_main_v57 (F := Ideal) x0 x1 x2 i
      = Ideal.div (wgt (cnt x0 x1 x2 (binIdx (x0 i) (x1 i))) (tot x2) * vld (x2 i)) (nne (cnt x0 x1 x2)) * bce (x0 i) (x1 i) := by
  rw [val_main_v57_apply, val_main_v47_apply, val_main_v44_apply, v43_eq, v10_eq, val_main_v46_apply, v45_eq, v56_eq]
  rfl

/-- THE REFERENCE'S VALUE: the loss in elementwise form, from the counts and the total. -/
theorem ref_value (x0 x1 x2 : Cert.Ghm.SE.Idx → EReal) :
    Cert.ReferenceIdeal.ReadP.val_main_v60 (F := Ideal) x0 x1 x2 = fun _ => Cert.Ghm.lossElementwise x0 x1 x2 (Cert.Ghm.cnt x0 x1 x2) (Cert.Ghm.tot x2) := by
  funext i
  have hs : (∑ j : S524288x80.Idx, val_main_v57 (F := Ideal) x0 x1 x2 j)
      = ∑ e : SE.Idx, Ideal.div (wgt (cnt x0 x1 x2 (binIdx (x0 e) (x1 e))) (tot x2) * vld (x2 e)) (nne (cnt x0 x1 x2)) * bce (x0 e) (x1 e) :=
    Finset.sum_congr rfl (fun j _ => v57_eq x0 x1 x2 j)
  rw [val_main_v60_apply, val_main_v59_apply, val_main_v58_apply, hs, v12_eq, val_main_cst_17_apply, val_main_cst_18_apply]
  unfold lossElementwise
  simp only [Ideal.mulf_def, Ideal.hostDivf_def, Ideal.ofBits_def]

end Cert.ReferenceIdeal.RefValue

end
-- ==== Proof.lean ====
/-
  The certificate: the gradient-harmonised cross-entropy kernel against its jnp reference.

  The kernel makes ONE pass over the 524288 · 80 elements, viewed as 40960 rows of 1024 lanes and cut into eighty
  [512,1024] blocks, forty per core. Per block it adds, into a per-core [8,128] accumulator, the ten bins' counts (and the
  number of valid elements) and, into a second one, the ten bins' sums of validity · cross-entropy; the host then adds
  the two cores' rows, turns the counts into per-bin weights  max(tot,1) / max(cnt,1)  (0 for an empty bin), divides by
  the number of non-empty bins, and forms  (Σ_b weight_b · mass_b) / max(tot,1):  the BINNED form of the loss
  (`Cert.Ghm.lossBinned`, Proof/Spec.lean). The reference computes the counts by a scatter-add, looks each element's
  weight up by a gather and sums  weight · validity / n · cross-entropy  over all elements: the ELEMENTWISE form
  (`Cert.Ghm.lossElementwise`). Both count the same things — bin(e) = clamp(⌊10·|σ(p) − t|⌋, 0, 9) is one function of an
  element on both sides, as are validity and cross-entropy — and the two forms are equal on the extended reals because
  each coefficient weight_b / n is a non-negative real, which distributes over any sum (Proof/Algebra.lean). No
  finiteness of the inputs is used.

  The kernel side: Proof/KPiece.lean (what one point leaves in the accumulators; the accumulators after every point),
  Proof/KLane.lean, KLaneB.lean, KLane2.lean (a point's contribution lane by lane), Proof/KArr.lean (the accumulators after
  each core's last point are the result arrays), Proof/KBlock.lean and Proof/Sums.lean (the blocks tile the reshaped
  arguments; re-indexing of the sums), Proof/KTail.lean (the host operations after the region are the binned form),
  Proof/KFin.lean (the kernel's result). The reference side: Proof/RefRun.lean and Proof/RefRead.lean (the reference's run,
  one operation at a time), Proof/RefValue.lean (its result is the elementwise form). The three frames are the programs'
  runs with the results dropped; the idealization rewrote nothing.
-/
import proofs.«172126_j1829656068729_2_alg».proof.Defs
import proofs.«172126_j1829656068729_2_alg».proof.Proof.Gen.Kernel
import proofs.«172126_j1829656068729_2_alg».proof.Proof.Gen.Kernel.Skeleton
import proofs.«172126_j1829656068729_2_alg».proof.Proof.Gen.Kernel.Launch
import proofs.«172126_j1829656068729_2_alg».proof.Proof.Gen.Kernel.Points
import proofs.«172126_j1829656068729_2_alg».proof.Proof.Gen.Kernel.Frame
import proofs.«172126_j1829656068729_2_alg».proof.Proof.Gen.KernelIdeal
import proofs.«172126_j1829656068729_2_alg».proof.Proof.Gen.KernelIdeal.Skeleton
import proofs.«172126_j1829656068729_2_alg».proof.Proof.Gen.KernelIdeal.Launch
import proofs.«172126_j1829656068729_2_alg».proof.Proof.Gen.KernelIdeal.Points
import proofs.«172126_j1829656068729_2_alg».proof.Proof.Gen.KernelIdeal.Frame
import proofs.«172126_j1829656068729_2_alg».proof.Proof.Gen.ReferenceIdeal
import proofs.«172126_j1829656068729_2_alg».proof.Proof.Gen.Pre_finite_inputs
import proofs.«172126_j1829656068729_2_alg».proof.Proof.KFin
import proofs.«172126_j1829656068729_2_alg».proof.Proof.RefValue
import proofs.«172126_j1829656068729_2_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- At the ideal instance the kernel's result is the binned form of the loss of its argument arrays and the reference's
    the elementwise form of ITS argument arrays; the arguments agree and the two forms are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Ghm.lossBinned
      (Cert.Ghm.cnt (Cert.KernelIdeal.KVal.pred m c) (Cert.KernelIdeal.KVal.targ m c) (Cert.KernelIdeal.KVal.labl m c))
      (Cert.Ghm.tot (Cert.KernelIdeal.KVal.labl m c))
      (Cert.Ghm.bsm (Cert.KernelIdeal.KVal.pred m c) (Cert.KernelIdeal.KVal.targ m c) (Cert.KernelIdeal.KVal.labl m c)), ?_, ?_⟩
  · refine (θ_run Cert.KernelIdeal.defs _ _).mono (fun r h c => ⟨?_, ?_, ?_, ?_⟩) (Cert.KernelIdeal.Gen.run_main m ρ)
    · exact ((h c).2 Cert.KernelIdeal.main_v34 (Pipeline.mem_restRefs_of Cert.KernelIdeal.main_v34 (by decide) (by decide))).trans
        (Cert.KernelIdeal.KVal.kernel_value m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v60_eq, Cert.ReferenceIdeal.RefValue.ref_value, (hagree c).1, (hagree c).2.1, (hagree c).2.2]
    funext _
    exact Cert.Ghm.loss_forms _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
